-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1600000 : Shape := ⟨1, ![1600000]⟩
abbrev S200000 : Shape := ⟨1, ![200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S256x128 .f32) (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg16
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_v63 main_v67

def fn_part2 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S10000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_arg18 : IVec S1600000 32) (main_arg19 : IVec S1600000 32) (main_arg20 : IVec S1600000 32) (main_arg21 : IVec S1600000 32) (main_arg22 : IVec S200000 32) (main_arg23 : IVec S200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1600000 : Shape := ⟨1, ![1600000]⟩
abbrev S200000 : Shape := ⟨1, ![200000]⟩
abbrev S_ : Shape := ⟨0, ![]⟩
abbrev S1600000x1 : Shape := ⟨2, ![1600000, 1]⟩
abbrev S1600000x128 : Shape := ⟨2, ![1600000, 128]⟩
abbrev S10000 : Shape := ⟨1, ![10000]⟩
abbrev S10000x1 : Shape := ⟨2, ![10000, 1]⟩
abbrev S1x128 : Shape := ⟨2, ![1, 128]⟩
abbrev S5000x128 : Shape := ⟨2, ![5000, 128]⟩
abbrev S5000x1 : Shape := ⟨2, ![5000, 1]⟩
abbrev S100000 : Shape := ⟨1, ![100000]⟩
abbrev S100000x1 : Shape := ⟨2, ![100000, 1]⟩
abbrev S200000x1 : Shape := ⟨2, ![200000, 1]⟩
abbrev S200000x128 : Shape := ⟨2, ![200000, 128]⟩
abbrev S1x1 : Shape := ⟨2, ![1, 1]⟩

abbrev nBuf : Space → Nat
  | .hbm => 136
  | .vmem => 55
  | .smem => 0
  | _ => 0

abbrev hbmTy0_0 (i : Nat) : BufTy := match i % 128 with
  | 0 => ⟨S100000x128, .f32⟩
  | 1 => ⟨S10000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S256x128, .f32⟩
  | 15 => ⟨S128, .f32⟩
  | 16 => ⟨S128x1, .f32⟩
  | 17 => ⟨S1, .f32⟩
  | 18 => ⟨S1600000, .i32⟩
  | 19 => ⟨S1600000, .i32⟩
  | 20 => ⟨S1600000, .i32⟩
  | 21 => ⟨S1600000, .i32⟩
  | 22 => ⟨S200000, .i32⟩
  | 23 => ⟨S200000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S10000x128, .f32⟩
  | 35 => ⟨S1600000x1, .i32⟩
  | 36 => ⟨S10000x128, .f32⟩
  | 37 => ⟨S_, .f32⟩
  | 38 => ⟨S1600000, .f32⟩
  | 39 => ⟨S_, .f32⟩
  | 40 => ⟨S10000, .f32⟩
  | 41 => ⟨S1600000x1, .i32⟩
  | 42 => ⟨S10000, .f32⟩
  | 43 => ⟨S10000x1, .f32⟩
  | 44 => ⟨S1x128, .f32⟩
  | 45 => ⟨S10000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S100000x1, .f32⟩
  | 66 => ⟨S1x128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S10000x128, .f32⟩
  | 79 => ⟨S1600000x1, .i32⟩
  | 80 => ⟨S10000x128, .f32⟩
  | 81 => ⟨S_, .f32⟩
  | 82 => ⟨S1600000, .f32⟩
  | 83 => ⟨S_, .f32⟩
  | 84 => ⟨S10000, .f32⟩
  | 85 => ⟨S1600000x1, .i32⟩
  | 86 => ⟨S10000, .f32⟩
  | 87 => ⟨S10000x1, .f32⟩
  | 88 => ⟨S1x128, .f32⟩
  | 89 => ⟨S10000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S_, .f32⟩
  | 104 => ⟨S1600000, .f32⟩
  | 105 => ⟨S_, .f32⟩
  | 106 => ⟨S100000, .f32⟩
  | 107 => ⟨S1600000x1, .i32⟩
  | 108 => ⟨S100000, .f32⟩
  | 109 => ⟨S100000x1, .f32⟩
  | 110 => ⟨S1x128, .f32⟩
  | 111 => ⟨S100000x128, .f32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x128, .f32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S100000x128, .f32⟩

abbrev hbmTy0_1 (i : Nat) : BufTy := match i % 128 with
  | 0 => ⟨S200000x1, .i32⟩
  | 1 => ⟨S200000x128, .f32⟩
  | 2 => ⟨S128x128, .f32⟩
  | 3 => ⟨S128x128, .f32⟩
  | 4 => ⟨S1x128, .f32⟩
  | 5 => ⟨S1x1, .f32⟩
  | 6 => ⟨S200000x1, .f32⟩
  | 7 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S128x1, .f32⟩
  | .local _ .vmem, ⟨52, _⟩ => ⟨S1x1, .f32⟩
  | .local _ .vmem, ⟨53, _⟩ => ⟨S5000x1, .f32⟩
  | .local _ .vmem, ⟨54, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_cst_7 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_8 : Ref sig .tc := ⟨.hbm, 68, rfl⟩
abbrev main_v34 : Ref sig .tc := ⟨.hbm, 69, rfl⟩
abbrev main_v35 : Ref sig .tc := ⟨.hbm, 70, rfl⟩
abbrev main_c_9 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_10 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_cst_12 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_13 : Ref sig .tc := ⟨.hbm, 90, rfl⟩
abbrev main_v51 : Ref sig .tc := ⟨.hbm, 91, rfl⟩
abbrev main_v52 : Ref sig .tc := ⟨.hbm, 92, rfl⟩
abbrev main_c_14 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_15 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_cst_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_18 : Ref sig .tc := ⟨.hbm, 112, rfl⟩
abbrev main_v68 : Ref sig .tc := ⟨.hbm, 113, rfl⟩
abbrev main_v69 : Ref sig .tc := ⟨.hbm, 114, rfl⟩
abbrev main_c_19 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_20 : Ref sig .tc := ⟨.hbm, 121, rfl⟩
abbrev main_v75 : Ref sig .tc := ⟨.hbm, 122, rfl⟩
abbrev main_v76 : Ref sig .tc := ⟨.hbm, 123, rfl⟩
abbrev main_c_21 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S200000 : S_.BroadcastsInDim S200000 (![] : Fin 0 → Fin S200000.rank)
  bcast_S200000_S200000x1_0 : S200000.BroadcastsInDim S200000x1 (![0] : Fin 1 → Fin S200000x1.rank)
  slices_S256x128_S128x128_0_0 : S256x128.Slices ![0, 0] S128x128
  slices_S256x128_S128x128_128_0 : S256x128.Slices ![128, 0] S128x128
  shapeCasts_S1_S1x1 : S1.ShapeCasts S1x1
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S200000x1_S200000 : S200000x1.ShapeCasts S200000
  gather_S100000x128_S1600000x1_S1600000x128_1_0_n_n_0_1_1128_wf : GatherDims.WF S100000x128 S1600000x1 S1600000x128 [1] [0] [] [0] [] 1 ![1, 128]
  scatter_S10000x128_S1600000x1_S1600000x128_1_0_0_1_wf : ScatterDims.WF S10000x128 S1600000x1 S1600000x128 [1] [0] [0] 1
  scatter_S10000_S1600000x1_S1600000_n_0_0_1_wf : ScatterDims.WF S10000 S1600000x1 S1600000 [] [0] [0] 1
  dot_S5000x128_S128x128_S5000x128_1_0_0_1_n_n_wf : DotDims.WF S5000x128 S128x128 S5000x128 [1] [0] [0] [1] [] []
  gather_S10000x128_S1600000x1_S1600000x128_1_0_n_n_0_1_1128_wf : GatherDims.WF S10000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S200000x1_S200000x128_1_0_n_n_0_1_1128_wf : GatherDims.WF S100000x128 S200000x1 S200000x128 [1] [0] [] [0] [] 1 ![1, 128]
  gather_S10000x128_S200000x1_S200000x128_1_0_n_n_0_1_1128_wf : GatherDims.WF S10000x128 S200000x1 S200000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S10000x128.size a
  hwx0_0 : ∀ i : grid0.Coords, EltTy.bits .f32 = 32 ∨ (Rect.block (s := S10000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S10000x1.size a
  hwx0_1 : ∀ i : grid0.Coords, EltTy.bits .f32 = 32 ∨ (Rect.block (s := S10000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S10000x128.size a
  hwx0_2 : ∀ i : grid0.Coords, EltTy.bits .f32 = 32 ∨ (Rect.block (s := S10000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S10000x128.size a
  hwx0_6 : ∀ i : grid0.Coords, EltTy.bits .f32 = 32 ∨ (Rect.block (s := S10000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S10000x128.size a
  hwx2_0 : ∀ i : grid2.Coords, EltTy.bits .f32 = 32 ∨ (Rect.block (s := S10000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S10000x1.size a
  hwx2_1 : ∀ i : grid2.Coords, EltTy.bits .f32 = 32 ∨ (Rect.block (s := S10000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S10000x128.size a
  hwx2_2 : ∀ i : grid2.Coords, EltTy.bits .f32 = 32 ∨ (Rect.block (s := S10000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S10000x128.size a
  hwx2_6 : ∀ i : grid2.Coords, EltTy.bits .f32 = 32 ∨ (Rect.block (s := S10000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S200000x1.size a
  hwx4_7 : ∀ i : grid4.Coords, EltTy.bits .f32 = 32 ∨ (Rect.block (s := S200000x1) S5000x1.size (cc4_transform_7 i) (hinb4_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S10000x128_S1600000x1_S1600000x128_1_0_0_1 : ScatterDims S10000x128 S1600000x1 S1600000x128 where
  updateWindowDims := [1]
  insertedWindowDims := [0]
  scatterDimsToOperandDims := [0]
  indexVectorDim := 1
  wf := scatter_S10000x128_S1600000x1_S1600000x128_1_0_0_1_wf
def scatter_S10000_S1600000x1_S1600000_n_0_0_1 : ScatterDims S10000 S1600000x1 S1600000 where
  updateWindowDims := []
  insertedWindowDims := [0]
  scatterDimsToOperandDims := [0]
  indexVectorDim := 1
  wf := scatter_S10000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S10000x128_S1600000x1_S1600000x128_1_0_n_n_0_1_1128 : GatherDims S10000x128 S1600000x1 S1600000x128 where
  offsetDims := [1]
  collapsedSliceDims := [0]
  operandBatchingDims := []
  startIndicesBatchingDims := []
  startIndexMap := [0]
  indexVectorDim := 1
  sliceSizes := ![1, 128]
  wf := gather_S10000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v85) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v86) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1600000 : Shape := ⟨1, ![1600000]⟩
abbrev S200000 : Shape := ⟨1, ![200000]⟩
abbrev S_ : Shape := ⟨0, ![]⟩
abbrev S1600000x1 : Shape := ⟨2, ![1600000, 1]⟩
abbrev S1600000x128 : Shape := ⟨2, ![1600000, 128]⟩
abbrev S10000 : Shape := ⟨1, ![10000]⟩
abbrev S10000x1 : Shape := ⟨2, ![10000, 1]⟩
abbrev S1x128 : Shape := ⟨2, ![1, 128]⟩
abbrev S100000 : Shape := ⟨1, ![100000]⟩
abbrev S100000x1 : Shape := ⟨2, ![100000, 1]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S100000x128, .f32⟩
  | 1 => ⟨S10000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S256x128, .f32⟩
  | 15 => ⟨S128, .f32⟩
  | 16 => ⟨S128x1, .f32⟩
  | 17 => ⟨S1, .f32⟩
  | 18 => ⟨S1600000, .i32⟩
  | 19 => ⟨S1600000, .i32⟩
  | 20 => ⟨S1600000, .i32⟩
  | 21 => ⟨S1600000, .i32⟩
  | 22 => ⟨S200000, .i32⟩
  | 23 => ⟨S200000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S10000x128, .f32⟩
  | 35 => ⟨S1600000x1, .i32⟩
  | 36 => ⟨S10000x128, .f32⟩
  | 37 => ⟨S_, .f32⟩
  | 38 => ⟨S1600000, .f32⟩
  | 39 => ⟨S_, .f32⟩
  | 40 => ⟨S10000, .f32⟩
  | 41 => ⟨S1600000x1, .i32⟩
  | 42 => ⟨S10000, .f32⟩
  | 43 => ⟨S_, .f32⟩
  | 44 => ⟨S10000, .f32⟩
  | 45 => ⟨S10000, .f32⟩
  | 46 => ⟨S10000x1, .f32⟩
  | 47 => ⟨S10000x128, .f32⟩
  | 48 => ⟨S10000x128, .f32⟩
  | 49 => ⟨S10000x128, .f32⟩
  | 50 => ⟨S1x128, .f32⟩
  | 51 => ⟨S10000x128, .f32⟩
  | 52 => ⟨S10000x128, .f32⟩
  | 53 => ⟨S10000x128, .f32⟩
  | 54 => ⟨S10000x128, .f32⟩
  | 55 => ⟨S_, .f32⟩
  | 56 => ⟨S10000x128, .f32⟩
  | 57 => ⟨S10000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S10000x128, .f32⟩
  | 103 => ⟨S1600000x1, .i32⟩
  | 104 => ⟨S10000x128, .f32⟩
  | 105 => ⟨S_, .f32⟩
  | 106 => ⟨S1600000, .f32⟩
  | 107 => ⟨S_, .f32⟩
  | 108 => ⟨S10000, .f32⟩
  | 109 => ⟨S1600000x1, .i32⟩
  | 110 => ⟨S10000, .f32⟩
  | 111 => ⟨S_, .f32⟩
  | 112 => ⟨S10000, .f32⟩
  | 113 => ⟨S10000, .f32⟩
  | 114 => ⟨S10000x1, .f32⟩
  | 115 => ⟨S10000x128, .f32⟩
  | 116 => ⟨S10000x128, .f32⟩
  | 117 => ⟨S10000x128, .f32⟩
  | 118 => ⟨S1x128, .f32⟩
  | 119 => ⟨S10000x128, .f32⟩
  | 120 => ⟨S10000x128, .f32⟩
  | 121 => ⟨S10000x128, .f32⟩
  | 122 => ⟨S10000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S100000x128, .f32⟩
  | 25 => ⟨S100000x128, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x128, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x128, .f32⟩
  | 44 => ⟨S200000x256, .f32⟩
  | 45 => ⟨S200000x128, .f32⟩
  | 46 => ⟨S1x128, .f32⟩
  | 47 => ⟨S200000x128, .f32⟩
  | 48 => ⟨S200000x128, .f32⟩
  | 49 => ⟨S_, .f32⟩
  | 50 => ⟨S200000x128, .f32⟩
  | 51 => ⟨S200000x128, .f32⟩
  | 52 => ⟨S200000x1, .f32⟩
  | 53 => ⟨S1x1, .f32⟩
  | 54 => ⟨S200000x1, .f32⟩
  | 55 => ⟨S200000x1, .f32⟩
  | 56 => ⟨S200000, .f32⟩
  | 57 => ⟨S200000, .f32⟩
  | 58 => ⟨S200000, .f32⟩
  | 59 => ⟨S_, .f32⟩
  | 60 => ⟨S200000, .f32⟩
  | 61 => ⟨S200000, .f32⟩
  | 62 => ⟨S_, .f32⟩
  | 63 => ⟨S200000, .f32⟩
  | 64 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call0_cst : Ref sig .tc := ⟨.hbm, 55, rfl⟩
abbrev main_call0_v0 : Ref sig .tc := ⟨.hbm, 56, rfl⟩
abbrev main_v25 : Ref sig .tc := ⟨.hbm, 57, rfl⟩
abbrev main_c_4 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_cst_8 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call1_cst : Ref sig .tc := ⟨.hbm, 89, rfl⟩
abbrev main_call1_v0 : Ref sig .tc := ⟨.hbm, 90, rfl⟩
abbrev main_v51 : Ref sig .tc := ⟨.hbm, 91, rfl⟩
abbrev main_c_10 : Ref sig .tc := ⟨.hbm, 92, rfl⟩
abbrev main_v52 : Ref sig .tc := ⟨.hbm, 93, rfl⟩
abbrev main_v53 : Ref sig .tc := ⟨.hbm, 94, rfl⟩
abbrev main_c_11 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_12 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_13 : Ref sig .tc := ⟨.hbm, 105, rfl⟩
abbrev main_v62 : Ref sig .tc := ⟨.hbm, 106, rfl⟩
abbrev main_cst_14 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_15 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_16 : Ref sig .tc := ⟨.hbm, 123, rfl⟩
abbrev main_v77 : Ref sig .tc := ⟨.hbm, 124, rfl⟩
abbrev main_v78 : Ref sig .tc := ⟨.hbm, 125, rfl⟩
abbrev main_c_17 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_18 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_19 : Ref sig .tc := ⟨.hbm, 136, rfl⟩
abbrev main_v87 : Ref sig .tc := ⟨.hbm, 137, rfl⟩
abbrev main_cst_20 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_21 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_22 : Ref sig .tc := ⟨.hbm, 154, rfl⟩
abbrev main_v102 : Ref sig .tc := ⟨.hbm, 155, rfl⟩
abbrev main_v103 : Ref sig .tc := ⟨.hbm, 156, rfl⟩
abbrev main_c_23 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c_24 : Ref sig .tc := ⟨.hbm, 163, rfl⟩
abbrev main_v109 : Ref sig .tc := ⟨.hbm, 164, rfl⟩
abbrev main_v110 : Ref sig .tc := ⟨.hbm, 165, rfl⟩
abbrev main_c_25 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_call2_cst : Ref sig .tc := ⟨.hbm, 177, rfl⟩
abbrev main_call2_v0 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_26 : Ref sig .tc := ⟨.hbm, 187, rfl⟩
abbrev main_v129 : Ref sig .tc := ⟨.hbm, 188, rfl⟩
abbrev main_v130 : Ref sig .tc := ⟨.hbm, 189, rfl⟩
abbrev main_cst_27 : Ref sig .tc := ⟨.hbm, 190, rfl⟩
abbrev main_v131 : Ref sig .tc := ⟨.hbm, 191, rfl⟩
abbrev main_v132 : Ref sig .tc := ⟨.hbm, 192, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S1600000x1_S1600000x128_1_0_n_n_0_1_1128_wf : GatherDims.WF S100000x128 S1600000x1 S1600000x128 [1] [0] [] [0] [] 1 ![1, 128]
  scatter_S10000x128_S1600000x1_S1600000x128_1_0_0_1_wf : ScatterDims.WF S10000x128 S1600000x1 S1600000x128 [1] [0] [0] 1
  scatter_S10000_S1600000x1_S1600000_n_0_0_1_wf : ScatterDims.WF S10000 S1600000x1 S1600000 [] [0] [0] 1
  dot_S10000x128_S128x128_S10000x128_1_0_0_1_n_n_wf : DotDims.WF S10000x128 S128x128 S10000x128 [1] [0] [0] [1] [] []
  gather_S10000x128_S1600000x1_S1600000x128_1_0_n_n_0_1_1128_wf : GatherDims.WF S10000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S10000x128_S200000x1_S200000x128_1_0_n_n_0_1_1128_wf : GatherDims.WF S10000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S10000x128_S1600000x1_S1600000x128_1_0_0_1 : ScatterDims S10000x128 S1600000x1 S1600000x128 where
  updateWindowDims := [1]
  insertedWindowDims := [0]
  scatterDimsToOperandDims := [0]
  indexVectorDim := 1
  wf := scatter_S10000x128_S1600000x1_S1600000x128_1_0_0_1_wf
def scatter_S10000_S1600000x1_S1600000_n_0_0_1 : ScatterDims S10000 S1600000x1 S1600000 where
  updateWindowDims := []
  insertedWindowDims := [0]
  scatterDimsToOperandDims := [0]
  indexVectorDim := 1
  wf := scatter_S10000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S1600000x1_S1600000x128_1_0_n_n_0_1_1128 : GatherDims S10000x128 S1600000x1 S1600000x128 where
  offsetDims := [1]
  collapsedSliceDims := [0]
  operandBatchingDims := []
  startIndicesBatchingDims := []
  startIndexMap := [0]
  indexVectorDim := 1
  sliceSizes := ![1, 128]
  wf := gather_S10000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KKeep.lean ====
/-
  Buffers that nothing writes in between keep their contents along the program: the contents of the kernel program's
  buffers at each boundary between a stretch of host operations and a kernel region form a fold from the launch memory
  (the generated `W0 … W11`), and at an argument array — and at a layer's output array once written — the fold walks
  back unchanged through every later stretch (which writes only its own results) and every later region (which writes
  only its output array).
-/
import proofs.«104557_j1906965479431_1_alg».proof.Proof.Gen.KernelIdeal.Frame
import Idealize.ShloMosaic.PureOps.Ideal

set_option maxRecDepth 16384

noncomputable section

namespace Cert.KernelIdeal.Keep

open Cert.KernelIdeal Cert.KernelIdeal.Gen Idealize.ShloMosaic Idealize.ShloMosaic.TcCoe Idealize.SL.Sem

/-- A buffer that stretch 0 of host operations does not write keeps its contents. -/
theorem keep_host0 (V : Valuation τ sig (Elt Ideal)) (b : Ref sig .tc)
    (hb : ∀ y ∈ ([main_c, main_v0, main_v1, main_c_0, main_v2, main_v3, main_v4, main_v5, main_v6, main_cst, main_v7, main_v8, main_v9, main_cst_1, main_v10, main_cst_2, main_v11, main_v12, main_v13, main_v14, main_v15] : List (Ref sig .tc)), b ≠ y) :
    StableHlo.after (hostOps0 (F := Ideal)) V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer that stretch 1 of host operations does not write keeps its contents. -/
theorem keep_host1 (V : Valuation τ sig (Elt Ideal)) (b : Ref sig .tc)
    (hb : ∀ y ∈ ([main_c_3, main_v17, main_v18, main_c_4, main_v19, main_v20, main_v21, main_v22, main_v23, main_cst_5, main_v24, main_v25, main_v26, main_cst_6, main_v27, main_cst_7, main_v28, main_v29, main_v30, main_v31, main_v32] : List (Ref sig .tc)), b ≠ y) :
    StableHlo.after (hostOps1 (F := Ideal)) V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer that stretch 2 of host operations does not write keeps its contents. -/
theorem keep_host2 (V : Valuation τ sig (Elt Ideal)) (b : Ref sig .tc)
    (hb : ∀ y ∈ ([main_c_8, main_v34, main_v35, main_c_9, main_v36, main_v37, main_v38, main_v39, main_v40, main_cst_10, main_v41, main_v42, main_v43, main_cst_11, main_v44, main_cst_12, main_v45, main_v46, main_v47, main_v48, main_v49] : List (Ref sig .tc)), b ≠ y) :
    StableHlo.after (hostOps2 (F := Ideal)) V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer that stretch 3 of host operations does not write keeps its contents. -/
theorem keep_host3 (V : Valuation τ sig (Elt Ideal)) (b : Ref sig .tc)
    (hb : ∀ y ∈ ([main_c_13, main_v51, main_v52, main_c_14, main_v53, main_v54, main_v55, main_v56, main_v57, main_cst_15, main_v58, main_v59, main_v60, main_cst_16, main_v61, main_cst_17, main_v62, main_v63, main_v64, main_v65, main_v66] : List (Ref sig .tc)), b ≠ y) :
    StableHlo.after (hostOps3 (F := Ideal)) V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer that stretch 4 of host operations does not write keeps its contents. -/
theorem keep_host4 (V : Valuation τ sig (Elt Ideal)) (b : Ref sig .tc)
    (hb : ∀ y ∈ ([main_c_18, main_v68, main_v69, main_c_19, main_v70, main_v71, main_v72, main_v73, main_v74, main_c_20, main_v75, main_v76, main_c_21, main_v77, main_v78, main_v79, main_v80, main_v81, main_v82, main_v83, main_v84, main_v85] : List (Ref sig .tc)), b ≠ y) :
    StableHlo.after (hostOps4 (F := Ideal)) V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

variable (m : (ℓ : Loc nD τ sig) → Buf (Elt Ideal) ℓ) (ρ : Dev nD → PrngReg)

theorem a1_at1 (c : Dev nD) : W1 m ρ c (Proc.devRef .tc main_arg1) = m ((c : Thread nD τ).loc main_arg1) :=
  (keep_host0 (W0 m ρ c) main_arg1 (by decide)).trans rfl
theorem a2_at1 (c : Dev nD) : W1 m ρ c (Proc.devRef .tc main_arg2) = m ((c : Thread nD τ).loc main_arg2) :=
  (keep_host0 (W0 m ρ c) main_arg2 (by decide)).trans rfl
theorem a4_at1 (c : Dev nD) : W1 m ρ c (Proc.devRef .tc main_arg4) = m ((c : Thread nD τ).loc main_arg4) :=
  (keep_host0 (W0 m ρ c) main_arg4 (by decide)).trans rfl
theorem a20_at1 (c : Dev nD) : W1 m ρ c (Proc.devRef .tc main_arg20) = m ((c : Thread nD τ).loc main_arg20) :=
  (keep_host0 (W0 m ρ c) main_arg20 (by decide)).trans rfl
theorem a21_at1 (c : Dev nD) : W1 m ρ c (Proc.devRef .tc main_arg21) = m ((c : Thread nD τ).loc main_arg21) :=
  (keep_host0 (W0 m ρ c) main_arg21 (by decide)).trans rfl
theorem a6_at1 (c : Dev nD) : W1 m ρ c (Proc.devRef .tc main_arg6) = m ((c : Thread nD τ).loc main_arg6) :=
  (keep_host0 (W0 m ρ c) main_arg6 (by decide)).trans rfl
theorem a0_at1 (c : Dev nD) : W1 m ρ c (Proc.devRef .tc main_arg0) = m ((c : Thread nD τ).loc main_arg0) :=
  (keep_host0 (W0 m ρ c) main_arg0 (by decide)).trans rfl
theorem a5_at1 (c : Dev nD) : W1 m ρ c (Proc.devRef .tc main_arg5) = m ((c : Thread nD τ).loc main_arg5) :=
  (keep_host0 (W0 m ρ c) main_arg5 (by decide)).trans rfl
theorem a7_at1 (c : Dev nD) : W1 m ρ c (Proc.devRef .tc main_arg7) = m ((c : Thread nD τ).loc main_arg7) :=
  (keep_host0 (W0 m ρ c) main_arg7 (by decide)).trans rfl
theorem a18_at1 (c : Dev nD) : W1 m ρ c (Proc.devRef .tc main_arg18) = m ((c : Thread nD τ).loc main_arg18) :=
  (keep_host0 (W0 m ρ c) main_arg18 (by decide)).trans rfl
theorem a19_at1 (c : Dev nD) : W1 m ρ c (Proc.devRef .tc main_arg19) = m ((c : Thread nD τ).loc main_arg19) :=
  (keep_host0 (W0 m ρ c) main_arg19 (by decide)).trans rfl
theorem a9_at1 (c : Dev nD) : W1 m ρ c (Proc.devRef .tc main_arg9) = m ((c : Thread nD τ).loc main_arg9) :=
  (keep_host0 (W0 m ρ c) main_arg9 (by decide)).trans rfl
theorem a8_at1 (c : Dev nD) : W1 m ρ c (Proc.devRef .tc main_arg8) = m ((c : Thread nD τ).loc main_arg8) :=
  (keep_host0 (W0 m ρ c) main_arg8 (by decide)).trans rfl
theorem a10_at1 (c : Dev nD) : W1 m ρ c (Proc.devRef .tc main_arg10) = m ((c : Thread nD τ).loc main_arg10) :=
  (keep_host0 (W0 m ρ c) main_arg10 (by decide)).trans rfl
theorem a12_at1 (c : Dev nD) : W1 m ρ c (Proc.devRef .tc main_arg12) = m ((c : Thread nD τ).loc main_arg12) :=
  (keep_host0 (W0 m ρ c) main_arg12 (by decide)).trans rfl
theorem a11_at1 (c : Dev nD) : W1 m ρ c (Proc.devRef .tc main_arg11) = m ((c : Thread nD τ).loc main_arg11) :=
  (keep_host0 (W0 m ρ c) main_arg11 (by decide)).trans rfl
theorem a13_at1 (c : Dev nD) : W1 m ρ c (Proc.devRef .tc main_arg13) = m ((c : Thread nD τ).loc main_arg13) :=
  (keep_host0 (W0 m ρ c) main_arg13 (by decide)).trans rfl
theorem a22_at1 (c : Dev nD) : W1 m ρ c (Proc.devRef .tc main_arg22) = m ((c : Thread nD τ).loc main_arg22) :=
  (keep_host0 (W0 m ρ c) main_arg22 (by decide)).trans rfl
theorem a23_at1 (c : Dev nD) : W1 m ρ c (Proc.devRef .tc main_arg23) = m ((c : Thread nD τ).loc main_arg23) :=
  (keep_host0 (W0 m ρ c) main_arg23 (by decide)).trans rfl
theorem a14_at1 (c : Dev nD) : W1 m ρ c (Proc.devRef .tc main_arg14) = m ((c : Thread nD τ).loc main_arg14) :=
  (keep_host0 (W0 m ρ c) main_arg14 (by decide)).trans rfl
theorem a15_at1 (c : Dev nD) : W1 m ρ c (Proc.devRef .tc main_arg15) = m ((c : Thread nD τ).loc main_arg15) :=
  (keep_host0 (W0 m ρ c) main_arg15 (by decide)).trans rfl
theorem a17_at1 (c : Dev nD) : W1 m ρ c (Proc.devRef .tc main_arg17) = m ((c : Thread nD τ).loc main_arg17) :=
  (keep_host0 (W0 m ρ c) main_arg17 (by decide)).trans rfl
theorem a16_at1 (c : Dev nD) : W1 m ρ c (Proc.devRef .tc main_arg16) = m ((c : Thread nD τ).loc main_arg16) :=
  (keep_host0 (W0 m ρ c) main_arg16 (by decide)).trans rfl
theorem a1_at2 (c : Dev nD) : W2 m ρ c (Proc.devRef .tc main_arg1) = m ((c : Thread nD τ).loc main_arg1) :=
  ((W2_arr m ρ c 2).trans (((dat0 (V1 m ρ) c).arrAt_in 2 rfl _).trans (A_eq0 (V1 m ρ) c 2))).trans (a1_at1 m ρ c)
theorem a20_at2 (c : Dev nD) : W2 m ρ c (Proc.devRef .tc main_arg20) = m ((c : Thread nD τ).loc main_arg20) :=
  (W2_of_ne m ρ c main_arg20 (by decide)).trans (a20_at1 m ρ c)
theorem a21_at2 (c : Dev nD) : W2 m ρ c (Proc.devRef .tc main_arg21) = m ((c : Thread nD τ).loc main_arg21) :=
  (W2_of_ne m ρ c main_arg21 (by decide)).trans (a21_at1 m ρ c)
theorem a6_at2 (c : Dev nD) : W2 m ρ c (Proc.devRef .tc main_arg6) = m ((c : Thread nD τ).loc main_arg6) :=
  (W2_of_ne m ρ c main_arg6 (by decide)).trans (a6_at1 m ρ c)
theorem a0_at2 (c : Dev nD) : W2 m ρ c (Proc.devRef .tc main_arg0) = m ((c : Thread nD τ).loc main_arg0) :=
  (W2_of_ne m ρ c main_arg0 (by decide)).trans (a0_at1 m ρ c)
theorem a5_at2 (c : Dev nD) : W2 m ρ c (Proc.devRef .tc main_arg5) = m ((c : Thread nD τ).loc main_arg5) :=
  (W2_of_ne m ρ c main_arg5 (by decide)).trans (a5_at1 m ρ c)
theorem a7_at2 (c : Dev nD) : W2 m ρ c (Proc.devRef .tc main_arg7) = m ((c : Thread nD τ).loc main_arg7) :=
  (W2_of_ne m ρ c main_arg7 (by decide)).trans (a7_at1 m ρ c)
theorem a18_at2 (c : Dev nD) : W2 m ρ c (Proc.devRef .tc main_arg18) = m ((c : Thread nD τ).loc main_arg18) :=
  (W2_of_ne m ρ c main_arg18 (by decide)).trans (a18_at1 m ρ c)
theorem a19_at2 (c : Dev nD) : W2 m ρ c (Proc.devRef .tc main_arg19) = m ((c : Thread nD τ).loc main_arg19) :=
  (W2_of_ne m ρ c main_arg19 (by decide)).trans (a19_at1 m ρ c)
theorem a9_at2 (c : Dev nD) : W2 m ρ c (Proc.devRef .tc main_arg9) = m ((c : Thread nD τ).loc main_arg9) :=
  (W2_of_ne m ρ c main_arg9 (by decide)).trans (a9_at1 m ρ c)
theorem a8_at2 (c : Dev nD) : W2 m ρ c (Proc.devRef .tc main_arg8) = m ((c : Thread nD τ).loc main_arg8) :=
  (W2_of_ne m ρ c main_arg8 (by decide)).trans (a8_at1 m ρ c)
theorem a10_at2 (c : Dev nD) : W2 m ρ c (Proc.devRef .tc main_arg10) = m ((c : Thread nD τ).loc main_arg10) :=
  (W2_of_ne m ρ c main_arg10 (by decide)).trans (a10_at1 m ρ c)
theorem a12_at2 (c : Dev nD) : W2 m ρ c (Proc.devRef .tc main_arg12) = m ((c : Thread nD τ).loc main_arg12) :=
  (W2_of_ne m ρ c main_arg12 (by decide)).trans (a12_at1 m ρ c)
theorem a11_at2 (c : Dev nD) : W2 m ρ c (Proc.devRef .tc main_arg11) = m ((c : Thread nD τ).loc main_arg11) :=
  (W2_of_ne m ρ c main_arg11 (by decide)).trans (a11_at1 m ρ c)
theorem a13_at2 (c : Dev nD) : W2 m ρ c (Proc.devRef .tc main_arg13) = m ((c : Thread nD τ).loc main_arg13) :=
  (W2_of_ne m ρ c main_arg13 (by decide)).trans (a13_at1 m ρ c)
theorem a22_at2 (c : Dev nD) : W2 m ρ c (Proc.devRef .tc main_arg22) = m ((c : Thread nD τ).loc main_arg22) :=
  (W2_of_ne m ρ c main_arg22 (by decide)).trans (a22_at1 m ρ c)
theorem a23_at2 (c : Dev nD) : W2 m ρ c (Proc.devRef .tc main_arg23) = m ((c : Thread nD τ).loc main_arg23) :=
  (W2_of_ne m ρ c main_arg23 (by decide)).trans (a23_at1 m ρ c)
theorem a14_at2 (c : Dev nD) : W2 m ρ c (Proc.devRef .tc main_arg14) = m ((c : Thread nD τ).loc main_arg14) :=
  (W2_of_ne m ρ c main_arg14 (by decide)).trans (a14_at1 m ρ c)
theorem a15_at2 (c : Dev nD) : W2 m ρ c (Proc.devRef .tc main_arg15) = m ((c : Thread nD τ).loc main_arg15) :=
  (W2_of_ne m ρ c main_arg15 (by decide)).trans (a15_at1 m ρ c)
theorem a17_at2 (c : Dev nD) : W2 m ρ c (Proc.devRef .tc main_arg17) = m ((c : Thread nD τ).loc main_arg17) :=
  (W2_of_ne m ρ c main_arg17 (by decide)).trans (a17_at1 m ρ c)
theorem a16_at2 (c : Dev nD) : W2 m ρ c (Proc.devRef .tc main_arg16) = m ((c : Thread nD τ).loc main_arg16) :=
  (W2_of_ne m ρ c main_arg16 (by decide)).trans (a16_at1 m ρ c)
theorem a0_at3 (c : Dev nD) : W3 m ρ c (Proc.devRef .tc main_arg0) = m ((c : Thread nD τ).loc main_arg0) :=
  (keep_host1 (W2 m ρ c) main_arg0 (by decide)).trans (a0_at2 m ρ c)
theorem a5_at3 (c : Dev nD) : W3 m ρ c (Proc.devRef .tc main_arg5) = m ((c : Thread nD τ).loc main_arg5) :=
  (keep_host1 (W2 m ρ c) main_arg5 (by decide)).trans (a5_at2 m ρ c)
theorem a7_at3 (c : Dev nD) : W3 m ρ c (Proc.devRef .tc main_arg7) = m ((c : Thread nD τ).loc main_arg7) :=
  (keep_host1 (W2 m ρ c) main_arg7 (by decide)).trans (a7_at2 m ρ c)
theorem a18_at3 (c : Dev nD) : W3 m ρ c (Proc.devRef .tc main_arg18) = m ((c : Thread nD τ).loc main_arg18) :=
  (keep_host1 (W2 m ρ c) main_arg18 (by decide)).trans (a18_at2 m ρ c)
theorem a19_at3 (c : Dev nD) : W3 m ρ c (Proc.devRef .tc main_arg19) = m ((c : Thread nD τ).loc main_arg19) :=
  (keep_host1 (W2 m ρ c) main_arg19 (by decide)).trans (a19_at2 m ρ c)
theorem a9_at3 (c : Dev nD) : W3 m ρ c (Proc.devRef .tc main_arg9) = m ((c : Thread nD τ).loc main_arg9) :=
  (keep_host1 (W2 m ρ c) main_arg9 (by decide)).trans (a9_at2 m ρ c)
theorem a8_at3 (c : Dev nD) : W3 m ρ c (Proc.devRef .tc main_arg8) = m ((c : Thread nD τ).loc main_arg8) :=
  (keep_host1 (W2 m ρ c) main_arg8 (by decide)).trans (a8_at2 m ρ c)
theorem a10_at3 (c : Dev nD) : W3 m ρ c (Proc.devRef .tc main_arg10) = m ((c : Thread nD τ).loc main_arg10) :=
  (keep_host1 (W2 m ρ c) main_arg10 (by decide)).trans (a10_at2 m ρ c)
theorem a20_at3 (c : Dev nD) : W3 m ρ c (Proc.devRef .tc main_arg20) = m ((c : Thread nD τ).loc main_arg20) :=
  (keep_host1 (W2 m ρ c) main_arg20 (by decide)).trans (a20_at2 m ρ c)
theorem a21_at3 (c : Dev nD) : W3 m ρ c (Proc.devRef .tc main_arg21) = m ((c : Thread nD τ).loc main_arg21) :=
  (keep_host1 (W2 m ρ c) main_arg21 (by decide)).trans (a21_at2 m ρ c)
theorem a12_at3 (c : Dev nD) : W3 m ρ c (Proc.devRef .tc main_arg12) = m ((c : Thread nD τ).loc main_arg12) :=
  (keep_host1 (W2 m ρ c) main_arg12 (by decide)).trans (a12_at2 m ρ c)
theorem a11_at3 (c : Dev nD) : W3 m ρ c (Proc.devRef .tc main_arg11) = m ((c : Thread nD τ).loc main_arg11) :=
  (keep_host1 (W2 m ρ c) main_arg11 (by decide)).trans (a11_at2 m ρ c)
theorem a13_at3 (c : Dev nD) : W3 m ρ c (Proc.devRef .tc main_arg13) = m ((c : Thread nD τ).loc main_arg13) :=
  (keep_host1 (W2 m ρ c) main_arg13 (by decide)).trans (a13_at2 m ρ c)
theorem a22_at3 (c : Dev nD) : W3 m ρ c (Proc.devRef .tc main_arg22) = m ((c : Thread nD τ).loc main_arg22) :=
  (keep_host1 (W2 m ρ c) main_arg22 (by decide)).trans (a22_at2 m ρ c)
theorem a23_at3 (c : Dev nD) : W3 m ρ c (Proc.devRef .tc main_arg23) = m ((c : Thread nD τ).loc main_arg23) :=
  (keep_host1 (W2 m ρ c) main_arg23 (by decide)).trans (a23_at2 m ρ c)
theorem a14_at3 (c : Dev nD) : W3 m ρ c (Proc.devRef .tc main_arg14) = m ((c : Thread nD τ).loc main_arg14) :=
  (keep_host1 (W2 m ρ c) main_arg14 (by decide)).trans (a14_at2 m ρ c)
theorem a15_at3 (c : Dev nD) : W3 m ρ c (Proc.devRef .tc main_arg15) = m ((c : Thread nD τ).loc main_arg15) :=
  (keep_host1 (W2 m ρ c) main_arg15 (by decide)).trans (a15_at2 m ρ c)
theorem a17_at3 (c : Dev nD) : W3 m ρ c (Proc.devRef .tc main_arg17) = m ((c : Thread nD τ).loc main_arg17) :=
  (keep_host1 (W2 m ρ c) main_arg17 (by decide)).trans (a17_at2 m ρ c)
theorem a16_at3 (c : Dev nD) : W3 m ρ c (Proc.devRef .tc main_arg16) = m ((c : Thread nD τ).loc main_arg16) :=
  (keep_host1 (W2 m ρ c) main_arg16 (by decide)).trans (a16_at2 m ρ c)
theorem a18_at4 (c : Dev nD) : W4 m ρ c (Proc.devRef .tc main_arg18) = m ((c : Thread nD τ).loc main_arg18) :=
  (W4_of_ne m ρ c main_arg18 (by decide)).trans (a18_at3 m ρ c)
theorem a19_at4 (c : Dev nD) : W4 m ρ c (Proc.devRef .tc main_arg19) = m ((c : Thread nD τ).loc main_arg19) :=
  (W4_of_ne m ρ c main_arg19 (by decide)).trans (a19_at3 m ρ c)
theorem a9_at4 (c : Dev nD) : W4 m ρ c (Proc.devRef .tc main_arg9) = m ((c : Thread nD τ).loc main_arg9) :=
  (W4_of_ne m ρ c main_arg9 (by decide)).trans (a9_at3 m ρ c)
theorem a8_at4 (c : Dev nD) : W4 m ρ c (Proc.devRef .tc main_arg8) = m ((c : Thread nD τ).loc main_arg8) :=
  (W4_of_ne m ρ c main_arg8 (by decide)).trans (a8_at3 m ρ c)
theorem a10_at4 (c : Dev nD) : W4 m ρ c (Proc.devRef .tc main_arg10) = m ((c : Thread nD τ).loc main_arg10) :=
  (W4_of_ne m ρ c main_arg10 (by decide)).trans (a10_at3 m ρ c)
theorem a20_at4 (c : Dev nD) : W4 m ρ c (Proc.devRef .tc main_arg20) = m ((c : Thread nD τ).loc main_arg20) :=
  (W4_of_ne m ρ c main_arg20 (by decide)).trans (a20_at3 m ρ c)
theorem a21_at4 (c : Dev nD) : W4 m ρ c (Proc.devRef .tc main_arg21) = m ((c : Thread nD τ).loc main_arg21) :=
  (W4_of_ne m ρ c main_arg21 (by decide)).trans (a21_at3 m ρ c)
theorem a12_at4 (c : Dev nD) : W4 m ρ c (Proc.devRef .tc main_arg12) = m ((c : Thread nD τ).loc main_arg12) :=
  (W4_of_ne m ρ c main_arg12 (by decide)).trans (a12_at3 m ρ c)
theorem a11_at4 (c : Dev nD) : W4 m ρ c (Proc.devRef .tc main_arg11) = m ((c : Thread nD τ).loc main_arg11) :=
  (W4_of_ne m ρ c main_arg11 (by decide)).trans (a11_at3 m ρ c)
theorem a13_at4 (c : Dev nD) : W4 m ρ c (Proc.devRef .tc main_arg13) = m ((c : Thread nD τ).loc main_arg13) :=
  (W4_of_ne m ρ c main_arg13 (by decide)).trans (a13_at3 m ρ c)
theorem a22_at4 (c : Dev nD) : W4 m ρ c (Proc.devRef .tc main_arg22) = m ((c : Thread nD τ).loc main_arg22) :=
  (W4_of_ne m ρ c main_arg22 (by decide)).trans (a22_at3 m ρ c)
theorem a23_at4 (c : Dev nD) : W4 m ρ c (Proc.devRef .tc main_arg23) = m ((c : Thread nD τ).loc main_arg23) :=
  (W4_of_ne m ρ c main_arg23 (by decide)).trans (a23_at3 m ρ c)
theorem a14_at4 (c : Dev nD) : W4 m ρ c (Proc.devRef .tc main_arg14) = m ((c : Thread nD τ).loc main_arg14) :=
  (W4_of_ne m ρ c main_arg14 (by decide)).trans (a14_at3 m ρ c)
theorem a15_at4 (c : Dev nD) : W4 m ρ c (Proc.devRef .tc main_arg15) = m ((c : Thread nD τ).loc main_arg15) :=
  (W4_of_ne m ρ c main_arg15 (by decide)).trans (a15_at3 m ρ c)
theorem a17_at4 (c : Dev nD) : W4 m ρ c (Proc.devRef .tc main_arg17) = m ((c : Thread nD τ).loc main_arg17) :=
  (W4_of_ne m ρ c main_arg17 (by decide)).trans (a17_at3 m ρ c)
theorem a16_at4 (c : Dev nD) : W4 m ρ c (Proc.devRef .tc main_arg16) = m ((c : Thread nD τ).loc main_arg16) :=
  (W4_of_ne m ρ c main_arg16 (by decide)).trans (a16_at3 m ρ c)
theorem a8_at5 (c : Dev nD) : W5 m ρ c (Proc.devRef .tc main_arg8) = m ((c : Thread nD τ).loc main_arg8) :=
  (keep_host2 (W4 m ρ c) main_arg8 (by decide)).trans (a8_at4 m ρ c)
theorem a10_at5 (c : Dev nD) : W5 m ρ c (Proc.devRef .tc main_arg10) = m ((c : Thread nD τ).loc main_arg10) :=
  (keep_host2 (W4 m ρ c) main_arg10 (by decide)).trans (a10_at4 m ρ c)
theorem a20_at5 (c : Dev nD) : W5 m ρ c (Proc.devRef .tc main_arg20) = m ((c : Thread nD τ).loc main_arg20) :=
  (keep_host2 (W4 m ρ c) main_arg20 (by decide)).trans (a20_at4 m ρ c)
theorem a21_at5 (c : Dev nD) : W5 m ρ c (Proc.devRef .tc main_arg21) = m ((c : Thread nD τ).loc main_arg21) :=
  (keep_host2 (W4 m ρ c) main_arg21 (by decide)).trans (a21_at4 m ρ c)
theorem a12_at5 (c : Dev nD) : W5 m ρ c (Proc.devRef .tc main_arg12) = m ((c : Thread nD τ).loc main_arg12) :=
  (keep_host2 (W4 m ρ c) main_arg12 (by decide)).trans (a12_at4 m ρ c)
theorem a11_at5 (c : Dev nD) : W5 m ρ c (Proc.devRef .tc main_arg11) = m ((c : Thread nD τ).loc main_arg11) :=
  (keep_host2 (W4 m ρ c) main_arg11 (by decide)).trans (a11_at4 m ρ c)
theorem a13_at5 (c : Dev nD) : W5 m ρ c (Proc.devRef .tc main_arg13) = m ((c : Thread nD τ).loc main_arg13) :=
  (keep_host2 (W4 m ρ c) main_arg13 (by decide)).trans (a13_at4 m ρ c)
theorem a22_at5 (c : Dev nD) : W5 m ρ c (Proc.devRef .tc main_arg22) = m ((c : Thread nD τ).loc main_arg22) :=
  (keep_host2 (W4 m ρ c) main_arg22 (by decide)).trans (a22_at4 m ρ c)
theorem a23_at5 (c : Dev nD) : W5 m ρ c (Proc.devRef .tc main_arg23) = m ((c : Thread nD τ).loc main_arg23) :=
  (keep_host2 (W4 m ρ c) main_arg23 (by decide)).trans (a23_at4 m ρ c)
theorem a14_at5 (c : Dev nD) : W5 m ρ c (Proc.devRef .tc main_arg14) = m ((c : Thread nD τ).loc main_arg14) :=
  (keep_host2 (W4 m ρ c) main_arg14 (by decide)).trans (a14_at4 m ρ c)
theorem a15_at5 (c : Dev nD) : W5 m ρ c (Proc.devRef .tc main_arg15) = m ((c : Thread nD τ).loc main_arg15) :=
  (keep_host2 (W4 m ρ c) main_arg15 (by decide)).trans (a15_at4 m ρ c)
theorem a17_at5 (c : Dev nD) : W5 m ρ c (Proc.devRef .tc main_arg17) = m ((c : Thread nD τ).loc main_arg17) :=
  (keep_host2 (W4 m ρ c) main_arg17 (by decide)).trans (a17_at4 m ρ c)
theorem a16_at5 (c : Dev nD) : W5 m ρ c (Proc.devRef .tc main_arg16) = m ((c : Thread nD τ).loc main_arg16) :=
  (keep_host2 (W4 m ρ c) main_arg16 (by decide)).trans (a16_at4 m ρ c)
theorem a20_at6 (c : Dev nD) : W6 m ρ c (Proc.devRef .tc main_arg20) = m ((c : Thread nD τ).loc main_arg20) :=
  (W6_of_ne m ρ c main_arg20 (by decide)).trans (a20_at5 m ρ c)
theorem a21_at6 (c : Dev nD) : W6 m ρ c (Proc.devRef .tc main_arg21) = m ((c : Thread nD τ).loc main_arg21) :=
  (W6_of_ne m ρ c main_arg21 (by decide)).trans (a21_at5 m ρ c)
theorem a12_at6 (c : Dev nD) : W6 m ρ c (Proc.devRef .tc main_arg12) = m ((c : Thread nD τ).loc main_arg12) :=
  (W6_of_ne m ρ c main_arg12 (by decide)).trans (a12_at5 m ρ c)
theorem a11_at6 (c : Dev nD) : W6 m ρ c (Proc.devRef .tc main_arg11) = m ((c : Thread nD τ).loc main_arg11) :=
  (W6_of_ne m ρ c main_arg11 (by decide)).trans (a11_at5 m ρ c)
theorem a13_at6 (c : Dev nD) : W6 m ρ c (Proc.devRef .tc main_arg13) = m ((c : Thread nD τ).loc main_arg13) :=
  (W6_of_ne m ρ c main_arg13 (by decide)).trans (a13_at5 m ρ c)
theorem a22_at6 (c : Dev nD) : W6 m ρ c (Proc.devRef .tc main_arg22) = m ((c : Thread nD τ).loc main_arg22) :=
  (W6_of_ne m ρ c main_arg22 (by decide)).trans (a22_at5 m ρ c)
theorem a23_at6 (c : Dev nD) : W6 m ρ c (Proc.devRef .tc main_arg23) = m ((c : Thread nD τ).loc main_arg23) :=
  (W6_of_ne m ρ c main_arg23 (by decide)).trans (a23_at5 m ρ c)
theorem a14_at6 (c : Dev nD) : W6 m ρ c (Proc.devRef .tc main_arg14) = m ((c : Thread nD τ).loc main_arg14) :=
  (W6_of_ne m ρ c main_arg14 (by decide)).trans (a14_at5 m ρ c)
theorem a15_at6 (c : Dev nD) : W6 m ρ c (Proc.devRef .tc main_arg15) = m ((c : Thread nD τ).loc main_arg15) :=
  (W6_of_ne m ρ c main_arg15 (by decide)).trans (a15_at5 m ρ c)
theorem a17_at6 (c : Dev nD) : W6 m ρ c (Proc.devRef .tc main_arg17) = m ((c : Thread nD τ).loc main_arg17) :=
  (W6_of_ne m ρ c main_arg17 (by decide)).trans (a17_at5 m ρ c)
theorem a16_at6 (c : Dev nD) : W6 m ρ c (Proc.devRef .tc main_arg16) = m ((c : Thread nD τ).loc main_arg16) :=
  (W6_of_ne m ρ c main_arg16 (by decide)).trans (a16_at5 m ρ c)
theorem a11_at7 (c : Dev nD) : W7 m ρ c (Proc.devRef .tc main_arg11) = m ((c : Thread nD τ).loc main_arg11) :=
  (keep_host3 (W6 m ρ c) main_arg11 (by decide)).trans (a11_at6 m ρ c)
theorem a13_at7 (c : Dev nD) : W7 m ρ c (Proc.devRef .tc main_arg13) = m ((c : Thread nD τ).loc main_arg13) :=
  (keep_host3 (W6 m ρ c) main_arg13 (by decide)).trans (a13_at6 m ρ c)
theorem a22_at7 (c : Dev nD) : W7 m ρ c (Proc.devRef .tc main_arg22) = m ((c : Thread nD τ).loc main_arg22) :=
  (keep_host3 (W6 m ρ c) main_arg22 (by decide)).trans (a22_at6 m ρ c)
theorem a23_at7 (c : Dev nD) : W7 m ρ c (Proc.devRef .tc main_arg23) = m ((c : Thread nD τ).loc main_arg23) :=
  (keep_host3 (W6 m ρ c) main_arg23 (by decide)).trans (a23_at6 m ρ c)
theorem a14_at7 (c : Dev nD) : W7 m ρ c (Proc.devRef .tc main_arg14) = m ((c : Thread nD τ).loc main_arg14) :=
  (keep_host3 (W6 m ρ c) main_arg14 (by decide)).trans (a14_at6 m ρ c)
theorem a15_at7 (c : Dev nD) : W7 m ρ c (Proc.devRef .tc main_arg15) = m ((c : Thread nD τ).loc main_arg15) :=
  (keep_host3 (W6 m ρ c) main_arg15 (by decide)).trans (a15_at6 m ρ c)
theorem a17_at7 (c : Dev nD) : W7 m ρ c (Proc.devRef .tc main_arg17) = m ((c : Thread nD τ).loc main_arg17) :=
  (keep_host3 (W6 m ρ c) main_arg17 (by decide)).trans (a17_at6 m ρ c)
theorem a16_at7 (c : Dev nD) : W7 m ρ c (Proc.devRef .tc main_arg16) = m ((c : Thread nD τ).loc main_arg16) :=
  (keep_host3 (W6 m ρ c) main_arg16 (by decide)).trans (a16_at6 m ρ c)
theorem a22_at8 (c : Dev nD) : W8 m ρ c (Proc.devRef .tc main_arg22) = m ((c : Thread nD τ).loc main_arg22) :=
  (W8_of_ne m ρ c main_arg22 (by decide)).trans (a22_at7 m ρ c)
theorem a23_at8 (c : Dev nD) : W8 m ρ c (Proc.devRef .tc main_arg23) = m ((c : Thread nD τ).loc main_arg23) :=
  (W8_of_ne m ρ c main_arg23 (by decide)).trans (a23_at7 m ρ c)
theorem a14_at8 (c : Dev nD) : W8 m ρ c (Proc.devRef .tc main_arg14) = m ((c : Thread nD τ).loc main_arg14) :=
  (W8_of_ne m ρ c main_arg14 (by decide)).trans (a14_at7 m ρ c)
theorem a15_at8 (c : Dev nD) : W8 m ρ c (Proc.devRef .tc main_arg15) = m ((c : Thread nD τ).loc main_arg15) :=
  (W8_of_ne m ρ c main_arg15 (by decide)).trans (a15_at7 m ρ c)
theorem a17_at8 (c : Dev nD) : W8 m ρ c (Proc.devRef .tc main_arg17) = m ((c : Thread nD τ).loc main_arg17) :=
  (W8_of_ne m ρ c main_arg17 (by decide)).trans (a17_at7 m ρ c)
theorem a16_at8 (c : Dev nD) : W8 m ρ c (Proc.devRef .tc main_arg16) = m ((c : Thread nD τ).loc main_arg16) :=
  (W8_of_ne m ρ c main_arg16 (by decide)).trans (a16_at7 m ρ c)
theorem a16_at9 (c : Dev nD) : W9 m ρ c (Proc.devRef .tc main_arg16) = m ((c : Thread nD τ).loc main_arg16) :=
  (keep_host4 (W8 m ρ c) main_arg16 (by decide)).trans (a16_at8 m ρ c)
theorem v16_at3 (c : Dev nD) : W3 m ρ c (Proc.devRef .tc main_v16) = W2 m ρ c (Proc.devRef .tc main_v16) :=
  (keep_host1 (W2 m ρ c) main_v16 (by decide))
theorem v16_at4 (c : Dev nD) : W4 m ρ c (Proc.devRef .tc main_v16) = W2 m ρ c (Proc.devRef .tc main_v16) :=
  (W4_of_ne m ρ c main_v16 (by decide)).trans (v16_at3 m ρ c)
theorem v16_at5 (c : Dev nD) : W5 m ρ c (Proc.devRef .tc main_v16) = W2 m ρ c (Proc.devRef .tc main_v16) :=
  (keep_host2 (W4 m ρ c) main_v16 (by decide)).trans (v16_at4 m ρ c)
theorem v16_at6 (c : Dev nD) : W6 m ρ c (Proc.devRef .tc main_v16) = W2 m ρ c (Proc.devRef .tc main_v16) :=
  ((W6_arr m ρ c 2).trans (((dat2 (V5 m ρ) c).arrAt_in 2 rfl _).trans (A_eq2 (V5 m ρ) c 2))).trans (v16_at5 m ρ c)
theorem v33_at5 (c : Dev nD) : W5 m ρ c (Proc.devRef .tc main_v33) = W4 m ρ c (Proc.devRef .tc main_v33) :=
  (keep_host2 (W4 m ρ c) main_v33 (by decide))
theorem v33_at6 (c : Dev nD) : W6 m ρ c (Proc.devRef .tc main_v33) = W4 m ρ c (Proc.devRef .tc main_v33) :=
  (W6_of_ne m ρ c main_v33 (by decide)).trans (v33_at5 m ρ c)
theorem v33_at7 (c : Dev nD) : W7 m ρ c (Proc.devRef .tc main_v33) = W4 m ρ c (Proc.devRef .tc main_v33) :=
  (keep_host3 (W6 m ρ c) main_v33 (by decide)).trans (v33_at6 m ρ c)
theorem v50_at7 (c : Dev nD) : W7 m ρ c (Proc.devRef .tc main_v50) = W6 m ρ c (Proc.devRef .tc main_v50) :=
  (keep_host3 (W6 m ρ c) main_v50 (by decide))
theorem v50_at8 (c : Dev nD) : W8 m ρ c (Proc.devRef .tc main_v50) = W6 m ρ c (Proc.devRef .tc main_v50) :=
  (W8_of_ne m ρ c main_v50 (by decide)).trans (v50_at7 m ρ c)

end Cert.KernelIdeal.Keep

end
-- ==== Proof.Spec.lean ====
/-
  What the network computes, as whole-array functions of the argument arrays.

  Two node kinds (100000 "r" nodes and 10000 "d" nodes, 128 features each) and two edge lists of 1600000 edges. A layer
  sends, along every edge, the source node's feature row to the destination node, sums what arrives at a node, divides
  the sum by the number of arrivals (at least one), multiplies by a weight matrix, adds a bias and adds the node's own
  row times a second weight matrix. Two such layers (the first followed by the positive part) give each node an
  embedding; for each of 200000 labelled pairs the two embeddings pass through a two-layer perceptron and the logistic
  function.

  The gathering and summing along edges, the counting and the selection of labelled rows are host operations that both
  programs spell in the same way: they enter here as six unopened functions (`HostFns`). The dense part of a layer
  (`sageAt`) and of the perceptron (`decAt`) is stated at an entry over the extended reals.
-/
import Idealize.ShloMosaic.PureOps.Ideal
import Idealize.ShloMosaic.Lib.ValueIdx

noncomputable section

open scoped BigOperators

namespace Cert.Net

open Idealize.ShloMosaic Idealize.ShloMosaic.ValueIdx

/-- A float array of the given shape at the ideal values. -/
abbrev FA (s : Shape) : Type := (⟨s, .f32⟩ : BufTy).Contents (Elt Ideal)
/-- An array of 32-bit integers of the given shape. -/
abbrev IA (s : Shape) : Type := (⟨s, .i32⟩ : BufTy).Contents (Elt Ideal)

abbrev SRn : Shape := ⟨2, ![100000, 128]⟩
abbrev SDn : Shape := ⟨2, ![10000, 128]⟩
abbrev SLn : Shape := ⟨2, ![200000, 128]⟩
abbrev SW : Shape := ⟨2, ![128, 128]⟩
abbrev SW1 : Shape := ⟨2, ![256, 128]⟩
abbrev SW2 : Shape := ⟨2, ![128, 1]⟩
abbrev SB : Shape := ⟨1, ![128]⟩
abbrev SB2 : Shape := ⟨1, ![1]⟩
abbrev SE : Shape := ⟨1, ![1600000]⟩
abbrev SL : Shape := ⟨1, ![200000]⟩
abbrev SRc : Shape := ⟨1, ![100000]⟩
abbrev SDc : Shape := ⟨1, ![10000]⟩

/-- The host operations both programs share, unopened: rows sent along the edges and summed at the destinations (in
    each direction), the number of edges arriving at each node (in each direction), and the rows at the labelled pairs
    (of each kind). -/
structure HostFns where
  aggRD : FA SRn → IA SE → IA SE → FA SDn
  aggDR : FA SDn → IA SE → IA SE → FA SRn
  cntRD : IA SE → FA SDc
  cntDR : IA SE → FA SRc
  selR : FA SRn → IA SL → FA SLn
  selD : FA SDn → IA SL → FA SLn

/-- One layer at entry (p, j): the summed rows `S` divided by the count (at least one), times `Wl`, plus the bias,
    plus the node's own row `X` times `Wr`. -/
def sageAt {R : Nat} (S X : (⟨2, ![R, 128]⟩ : Shape).Idx → EReal) (cnt : Fin R → EReal)
    (Wl Wr : SW.Idx → EReal) (b : Fin 128 → EReal) (p : Fin R) (j : Fin 128) : EReal :=
  (∑ k : Fin 128, Ideal.div (S (ix2 p k)) (max (cnt p) (Ideal.ofBits .f32 0x3F800000#32)) * Wl (ix2 k j) + b j)
    + ∑ k : Fin 128, X (ix2 p k) * Wr (ix2 k j)

/-- A layer as an array; `relu` says whether the positive part follows. -/
def sageArr (relu : Bool) {R : Nat} (S X : (⟨2, ![R, 128]⟩ : Shape).Idx → EReal) (cnt : (⟨1, ![R]⟩ : Shape).Idx → EReal)
    (Wl Wr : SW.Idx → EReal) (b : SB.Idx → EReal) : (⟨2, ![R, 128]⟩ : Shape).Idx → EReal := fun i =>
  bif relu then max (sageAt S X (fun p => cnt (ix1 p)) Wl Wr (fun j => b (ix1 j)) (i 0) (i 1)) 0
  else sageAt S X (fun p => cnt (ix1 p)) Wl Wr (fun j => b (ix1 j)) (i 0) (i 1)

/-- The perceptron's hidden unit j for the pair l: the r-row times the first 128 rows of `W1`, plus the d-row times
    the last 128 rows, plus the bias; positive part. -/
def hidAt (zr zd : SLn.Idx → EReal) (W1 : SW1.Idx → EReal) (b1 : Fin 128 → EReal) (l : Fin 200000) (j : Fin 128) : EReal :=
  max ((∑ k : Fin 128, zr (ix2 l k) * W1 (ix2 (Fin.castLE (by decide) k : Fin 256) j)
      + ∑ k : Fin 128, zd (ix2 l k) * W1 (ix2 (Fin.natAdd 128 k : Fin 256) j)) + b1 j) 0

/-- The perceptron's output for the pair l. -/
def decAt (zr zd : SLn.Idx → EReal) (W1 : SW1.Idx → EReal) (b1 : Fin 128 → EReal) (W2 : SW2.Idx → EReal) (b2 : EReal)
    (l : Fin 200000) : EReal :=
  Ideal.logistic (∑ j : Fin 128, hidAt zr zd W1 b1 l j * W2 (ix2 j (0 : Fin 1)) + b2)

/-- The perceptron over all pairs. -/
def decArr (zr zd : SLn.Idx → EReal) (W1 : SW1.Idx → EReal) (b1 : SB.Idx → EReal) (W2 : SW2.Idx → EReal)
    (b2 : SB2.Idx → EReal) : SL.Idx → EReal := fun i =>
  decAt zr zd W1 (fun j => b1 (ix1 j)) W2 (b2 (ix1 (0 : Fin 1))) (i 0)

/-- The arguments of the network, at the ideal values, in the order both programs take them. -/
structure Args where
  xr : FA SRn
  xd : FA SDn
  w1rdl : FA SW
  b1rd : FA SB
  w1rdr : FA SW
  w1drl : FA SW
  b1dr : FA SB
  w1drr : FA SW
  w2rdl : FA SW
  b2rd : FA SB
  w2rdr : FA SW
  w2drl : FA SW
  b2dr : FA SB
  w2drr : FA SW
  dW1 : FA SW1
  db1 : FA SB
  dW2 : FA SW2
  db2 : FA SB2
  srcRD : IA SE
  dstRD : IA SE
  srcDR : IA SE
  dstDR : IA SE
  labR : IA SL
  labD : IA SL

variable (h : HostFns)

/-- The d-nodes after the first layer. -/
def hD (a : Args) : FA SDn :=
  sageArr true (h.aggRD a.xr a.srcRD a.dstRD) a.xd (h.cntRD a.dstRD) a.w1rdl a.w1rdr a.b1rd
/-- The r-nodes after the first layer. -/
def hR (a : Args) : FA SRn :=
  sageArr true (h.aggDR a.xd a.srcDR a.dstDR) a.xr (h.cntDR a.dstDR) a.w1drl a.w1drr a.b1dr
/-- The d-nodes' embeddings. -/
def zD (a : Args) : FA SDn :=
  sageArr false (h.aggRD (hR h a) a.srcRD a.dstRD) (hD h a) (h.cntRD a.dstRD) a.w2rdl a.w2rdr a.b2rd
/-- The r-nodes' embeddings. -/
def zR (a : Args) : FA SRn :=
  sageArr false (h.aggDR (hD h a) a.srcDR a.dstDR) (hR h a) (h.cntDR a.dstDR) a.w2drl a.w2drr a.b2dr
/-- The network's result: one number per labelled pair. -/
def out (a : Args) : FA SL :=
  decArr (h.selR (zR h a) a.labR) (h.selD (zD h a) a.labD) a.dW1 a.db1 a.dW2 a.db2

end Cert.Net

end
-- ==== Proof.KHost.lean ====
/-
  The host operations the two programs share, as the kernel's program spells them, gathered into the record the
  specification takes, and the program's argument arrays as the specification's arguments.
-/
import proofs.«104557_j1906965479431_1_alg».proof.Proof.Gen.KernelIdeal
import proofs.«104557_j1906965479431_1_alg».proof.Proof.Spec

noncomputable section

namespace Cert.KernelIdeal.Host

open Idealize.ShloMosaic Idealize.SL.Sem Cert.KernelIdeal Cert.KernelIdeal.Facts₀

/-- An index vector over the edges with negative entries wrapped by `n`, as a column. -/
def colE (n : BitVec 32) (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 n))) src)

/-- An index vector over the labelled pairs with negative entries wrapped by `n`, as a column. -/
def colL (n : BitVec 32) (lab : (⟨S200000, .i32⟩ : BufTy).Contents (Elt Ideal)) : (⟨S200000x1, .i32⟩ : BufTy).Contents (Elt Ideal) :=
  broadcastInDim S200000x1 ![0] bcast_S200000_S200000x1_0
    (select (cmpi .slt lab (broadcastInDim S200000 ![] bcast_S_S200000 (constantI S_ 32 0#32)))
      (addi lab (broadcastInDim S200000 ![] bcast_S_S200000 (constantI S_ 32 n))) lab)

/-- The six shared host functions, as this program spells them. -/
def fns : Net.HostFns where
  aggRD x src dst :=
    Host.scatterAdd (F := Ideal) scatter_S10000x128_S1600000x1_S1600000x128_1_0_0_1
      (broadcastInDim S10000x128 ![] bcast_S_S10000x128 (constant (F := Ideal) S_ .f32 0x00000000#32))
      (broadcastInDim S1600000x1 ![0] bcast_S1600000_S1600000x1_0 dst)
      (Host.gather gather_S100000x128_S1600000x1_S1600000x128_1_0_n_n_0_1_1128 x (colE 100000#32 src))
  aggDR x src dst :=
    Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S10000x128_S1600000x1_S1600000x128_1_0_n_n_0_1_1128 x (colE 10000#32 src))
  cntRD dst :=
    Host.scatterAdd (F := Ideal) scatter_S10000_S1600000x1_S1600000_n_0_0_1
      (broadcastInDim S10000 ![] bcast_S_S10000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32))
  cntDR dst :=
    Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32))
  selR z lab := Host.gather gather_S100000x128_S200000x1_S200000x128_1_0_n_n_0_1_1128 z (colL 100000#32 lab)
  selD z lab := Host.gather gather_S10000x128_S200000x1_S200000x128_1_0_n_n_0_1_1128 z (colL 10000#32 lab)

/-- The program's argument arrays on core `c`, in its memory `m`, as the specification's arguments. -/
def args (m : (ℓ : Loc nD τ sig) → Buf (Elt Ideal) ℓ) (c : Dev nD) : Net.Args where
  xr := m ((c.tc : Thread nD τ).loc main_arg0)
  xd := m ((c.tc : Thread nD τ).loc main_arg1)
  w1rdl := m ((c.tc : Thread nD τ).loc main_arg2)
  b1rd := m ((c.tc : Thread nD τ).loc main_arg3)
  w1rdr := m ((c.tc : Thread nD τ).loc main_arg4)
  w1drl := m ((c.tc : Thread nD τ).loc main_arg5)
  b1dr := m ((c.tc : Thread nD τ).loc main_arg6)
  w1drr := m ((c.tc : Thread nD τ).loc main_arg7)
  w2rdl := m ((c.tc : Thread nD τ).loc main_arg8)
  b2rd := m ((c.tc : Thread nD τ).loc main_arg9)
  w2rdr := m ((c.tc : Thread nD τ).loc main_arg10)
  w2drl := m ((c.tc : Thread nD τ).loc main_arg11)
  b2dr := m ((c.tc : Thread nD τ).loc main_arg12)
  w2drr := m ((c.tc : Thread nD τ).loc main_arg13)
  dW1 := m ((c.tc : Thread nD τ).loc main_arg14)
  db1 := m ((c.tc : Thread nD τ).loc main_arg15)
  dW2 := m ((c.tc : Thread nD τ).loc main_arg16)
  db2 := m ((c.tc : Thread nD τ).loc main_arg17)
  srcRD := m ((c.tc : Thread nD τ).loc main_arg18)
  dstRD := m ((c.tc : Thread nD τ).loc main_arg19)
  srcDR := m ((c.tc : Thread nD τ).loc main_arg20)
  dstDR := m ((c.tc : Thread nD τ).loc main_arg21)
  labR := m ((c.tc : Thread nD τ).loc main_arg22)
  labD := m ((c.tc : Thread nD τ).loc main_arg23)

end Cert.KernelIdeal.Host

end
-- ==== Proof.KStretch.lean ====
/-
  What each stretch of host operations of the kernel's program leaves in the buffers the next region stages, as the
  shared host functions of the buffers it reads, for any contents the stretch starts from.
-/
import proofs.«104557_j1906965479431_1_alg».proof.Proof.Gen.KernelIdeal.Launch
import proofs.«104557_j1906965479431_1_alg».proof.Proof.KHost
import Idealize.ShloMosaic.Lib.StableHlo.Run

set_option maxRecDepth 16384

noncomputable section

namespace Cert.KernelIdeal.Stretch

open Cert.KernelIdeal Cert.KernelIdeal.Gen Cert.KernelIdeal.Host Idealize.ShloMosaic Idealize.ShloMosaic.TcCoe Idealize.SL.Sem Idealize.ShloMosaic.StableHlo

section Stretch
variable (V : Valuation τ sig (Elt Ideal))

/-! Stretch 0: the first layer's sums, counts and bias row for the d-nodes. -/
set_option maxHeartbeats 4000000 in
theorem s0_v9 : StableHlo.after (hostOps0 (F := Ideal)) V (Proc.devRef .tc main_v9) = fns.aggRD (V (Proc.devRef .tc main_arg0)) (V (Proc.devRef .tc main_arg18)) (V (Proc.devRef .tc main_arg19)) := by
  after_results <;> rfl
set_option maxHeartbeats 4000000 in
theorem s0_v14 : StableHlo.after (hostOps0 (F := Ideal)) V (Proc.devRef .tc main_v14) = broadcastInDim S10000x1 ![0] bcast_S10000_S10000x1_0 (fns.cntRD (V (Proc.devRef .tc main_arg19))) := by
  after_results <;> rfl
set_option maxHeartbeats 4000000 in
theorem s0_v15 : StableHlo.after (hostOps0 (F := Ideal)) V (Proc.devRef .tc main_v15) = shapeCast S1x128 (V (Proc.devRef .tc main_arg3)) shapeCasts_S128_S1x128 := by
  after_results <;> rfl

/-! Stretch 1: the same for the r-nodes. -/
set_option maxHeartbeats 4000000 in
theorem s1_v26 : StableHlo.after (hostOps1 (F := Ideal)) V (Proc.devRef .tc main_v26) = fns.aggDR (V (Proc.devRef .tc main_arg1)) (V (Proc.devRef .tc main_arg20)) (V (Proc.devRef .tc main_arg21)) := by
  after_results <;> rfl
set_option maxHeartbeats 4000000 in
theorem s1_v31 : StableHlo.after (hostOps1 (F := Ideal)) V (Proc.devRef .tc main_v31) = broadcastInDim S100000x1 ![0] bcast_S100000_S100000x1_0 (fns.cntDR (V (Proc.devRef .tc main_arg21))) := by
  after_results <;> rfl
set_option maxHeartbeats 4000000 in
theorem s1_v32 : StableHlo.after (hostOps1 (F := Ideal)) V (Proc.devRef .tc main_v32) = shapeCast S1x128 (V (Proc.devRef .tc main_arg6)) shapeCasts_S128_S1x128 := by
  after_results <;> rfl

/-! Stretch 2: the second layer for the d-nodes, summing the r-nodes' first-layer rows. -/
set_option maxHeartbeats 4000000 in
theorem s2_v43 : StableHlo.after (hostOps2 (F := Ideal)) V (Proc.devRef .tc main_v43) = fns.aggRD (V (Proc.devRef .tc main_v33)) (V (Proc.devRef .tc main_arg18)) (V (Proc.devRef .tc main_arg19)) := by
  after_results <;> rfl
set_option maxHeartbeats 4000000 in
theorem s2_v48 : StableHlo.after (hostOps2 (F := Ideal)) V (Proc.devRef .tc main_v48) = broadcastInDim S10000x1 ![0] bcast_S10000_S10000x1_0 (fns.cntRD (V (Proc.devRef .tc main_arg19))) := by
  after_results <;> rfl
set_option maxHeartbeats 4000000 in
theorem s2_v49 : StableHlo.after (hostOps2 (F := Ideal)) V (Proc.devRef .tc main_v49) = shapeCast S1x128 (V (Proc.devRef .tc main_arg9)) shapeCasts_S128_S1x128 := by
  after_results <;> rfl

/-! Stretch 3: the second layer for the r-nodes, summing the d-nodes' first-layer rows. -/
set_option maxHeartbeats 4000000 in
theorem s3_v60 : StableHlo.after (hostOps3 (F := Ideal)) V (Proc.devRef .tc main_v60) = fns.aggDR (V (Proc.devRef .tc main_v16)) (V (Proc.devRef .tc main_arg20)) (V (Proc.devRef .tc main_arg21)) := by
  after_results <;> rfl
set_option maxHeartbeats 4000000 in
theorem s3_v65 : StableHlo.after (hostOps3 (F := Ideal)) V (Proc.devRef .tc main_v65) = broadcastInDim S100000x1 ![0] bcast_S100000_S100000x1_0 (fns.cntDR (V (Proc.devRef .tc main_arg21))) := by
  after_results <;> rfl
set_option maxHeartbeats 4000000 in
theorem s3_v66 : StableHlo.after (hostOps3 (F := Ideal)) V (Proc.devRef .tc main_v66) = shapeCast S1x128 (V (Proc.devRef .tc main_arg12)) shapeCasts_S128_S1x128 := by
  after_results <;> rfl

/-! Stretch 4: the embeddings at the labelled pairs, the two halves of the first weight, the biases re-laid. -/
set_option maxHeartbeats 4000000 in
theorem s4_v74 : StableHlo.after (hostOps4 (F := Ideal)) V (Proc.devRef .tc main_v74) = fns.selR (V (Proc.devRef .tc main_v67)) (V (Proc.devRef .tc main_arg22)) := by
  after_results <;> rfl
set_option maxHeartbeats 4000000 in
theorem s4_v81 : StableHlo.after (hostOps4 (F := Ideal)) V (Proc.devRef .tc main_v81) = fns.selD (V (Proc.devRef .tc main_v50)) (V (Proc.devRef .tc main_arg23)) := by
  after_results <;> rfl
set_option maxHeartbeats 4000000 in
theorem s4_v82 : StableHlo.after (hostOps4 (F := Ideal)) V (Proc.devRef .tc main_v82) = extractStridedSlice S128x128 ![0, 0] (V (Proc.devRef .tc main_arg14)) slices_S256x128_S128x128_0_0 := by
  after_results <;> rfl
set_option maxHeartbeats 4000000 in
theorem s4_v83 : StableHlo.after (hostOps4 (F := Ideal)) V (Proc.devRef .tc main_v83) = extractStridedSlice S128x128 ![128, 0] (V (Proc.devRef .tc main_arg14)) slices_S256x128_S128x128_128_0 := by
  after_results <;> rfl
set_option maxHeartbeats 4000000 in
theorem s4_v84 : StableHlo.after (hostOps4 (F := Ideal)) V (Proc.devRef .tc main_v84) = shapeCast S1x128 (V (Proc.devRef .tc main_arg15)) shapeCasts_S128_S1x128 := by
  after_results <;> rfl
set_option maxHeartbeats 4000000 in
theorem s4_v85 : StableHlo.after (hostOps4 (F := Ideal)) V (Proc.devRef .tc main_v85) = shapeCast S1x1 (V (Proc.devRef .tc main_arg17)) shapeCasts_S1_S1x1 := by
  after_results <;> rfl

/-! Stretch 5: the result column re-read as a vector. -/
set_option maxHeartbeats 4000000 in
theorem s5_v87 : StableHlo.after (hostOps5 (F := Ideal)) V (Proc.devRef .tc main_v87) = shapeCast S200000 (V (Proc.devRef .tc main_v86)) shapeCasts_S200000x1_S200000 := by
  after_results <;> rfl

end Stretch

end Cert.KernelIdeal.Stretch

end
-- ==== Proof.KSage.lean ====
/-
  The kernel side of the four layer regions: what each region leaves in its output array, as one function of the
  arrays it finds.

  A region cuts its row arrays (the summed rows, the count column, the nodes' own rows, the output) into blocks of
  5000 rows and all columns, one block per grid point, and loads the two weight matrices and the bias row whole at
  every point. Its body computes, on a block, entry (p, j) as

      (∑ k, S(p, k) / max(cnt(p), 1) · Wl(k, j) + b(j)) + ∑ k, X(p, k) · Wr(k, j)

  (the first two regions then take the maximum with zero): the division by the count broadcast along the row, two
  products into zero accumulators (a sum over the contracted coordinate; a change of float format is the identity on
  the extended reals), the bias row laid along every row. Entry (p, j) of the block of point t is entry
  (5000 t + p, j) of the arrays, so every point writes back block t of ONE whole-array function, `layer`; row r lies
  in the block of point r / 5000, so the blocks cover the array and the array ends holding that function. The count
  column read at (r, 0) is the count at r and the bias row read at (0, j) is the bias at j, which turns `layer` into
  the specification's `Net.sageArr`.
-/
import proofs.«104557_j1906965479431_1_alg».proof.Proof.Gen.KernelIdeal.Frame
import proofs.«104557_j1906965479431_1_alg».proof.Proof.Spec
import Idealize.ShloMosaic.Lib.ValueLayout
import Idealize.ShloMosaic.Lib.KernelVsHost
import Idealize.ShloMosaic.Lib.StackMember
import Idealize.ShloMosaic.PureOps.Ideal.Laws
import Idealize.ShloMosaic.Lib.Pipeline.Value

set_option maxRecDepth 16384

noncomputable section

open scoped BigOperators

namespace Cert.KernelIdeal.SageValue

open Cert.KernelIdeal Cert.KernelIdeal.Gen Idealize.ShloMosaic Idealize.ShloMosaic.TcCoe Idealize.SL.Sem
open Idealize.ShloMosaic.ValueIdx Idealize.ShloMosaic.StackMember
open Idealize.ShloMosaic.Pipeline (Dat)

/-! ## Operations read at an entry -/

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A column [a, 1] broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The bodies on a block -/

/-- The body of region 0 at entry (p, j) of its block: the layer of the loaded blocks, then the positive part. -/
theorem pay0_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (p : Fin 5000) (j : Fin 128) :
    k0_pay1 x1 x0 x2 x3 x5 x4 (ix2 p j)
      = max (Net.sageAt (R := 5000) x0 x2 (fun p => x1 (ix2 p (0 : Fin 1))) x3 x5 (fun j => x4 (ix2 (0 : Fin 1) j)) p j) 0 := by
  unfold k0_pay1
  simp only [shapeCast_self]
  rw [maximumf_apply, broadcast_apply, addf_apply, addf_apply,
    show dot_S5000x128_S128x128_S5000x128_1_0_0_1_n_n = DotDims.plain 5000 128 128 from rfl,
    matmul0_apply, matmul0_apply, broadcastTo_1b_ab_apply]
  simp only [truncf_apply, divf_apply, broadcastTo_a1_ab_apply, maximumf_apply, broadcast_apply]
  exact congrArg (max _) Ideal.ofBits_zero_f32

/-- The body of region 1 at entry (p, j) of its block: the layer of the loaded blocks, then the positive part. -/
theorem pay1_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (p : Fin 5000) (j : Fin 128) :
    k1_pay1 x1 x0 x2 x3 x5 x4 (ix2 p j)
      = max (Net.sageAt (R := 5000) x0 x2 (fun p => x1 (ix2 p (0 : Fin 1))) x3 x5 (fun j => x4 (ix2 (0 : Fin 1) j)) p j) 0 := by
  unfold k1_pay1
  simp only [shapeCast_self]
  rw [maximumf_apply, broadcast_apply, addf_apply, addf_apply,
    show dot_S5000x128_S128x128_S5000x128_1_0_0_1_n_n = DotDims.plain 5000 128 128 from rfl,
    matmul0_apply, matmul0_apply, broadcastTo_1b_ab_apply]
  simp only [truncf_apply, divf_apply, broadcastTo_a1_ab_apply, maximumf_apply, broadcast_apply]
  exact congrArg (max _) Ideal.ofBits_zero_f32

/-- The body of region 2 at entry (p, j) of its block: the layer of the loaded blocks. -/
theorem pay2_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (p : Fin 5000) (j : Fin 128) :
    k2_pay1 x1 x0 x2 x3 x5 x4 (ix2 p j)
      = Net.sageAt (R := 5000) x0 x2 (fun p => x1 (ix2 p (0 : Fin 1))) x3 x5 (fun j => x4 (ix2 (0 : Fin 1) j)) p j := by
  unfold k2_pay1
  simp only [shapeCast_self]
  rw [addf_apply, addf_apply,
    show dot_S5000x128_S128x128_S5000x128_1_0_0_1_n_n = DotDims.plain 5000 128 128 from rfl,
    matmul0_apply, matmul0_apply, broadcastTo_1b_ab_apply]
  simp only [truncf_apply, divf_apply, broadcastTo_a1_ab_apply, maximumf_apply, broadcast_apply]
  rfl

/-- The body of region 3 at entry (p, j) of its block: the layer of the loaded blocks. -/
theorem pay3_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (p : Fin 5000) (j : Fin 128) :
    k3_pay1 x1 x0 x2 x3 x5 x4 (ix2 p j)
      = Net.sageAt (R := 5000) x0 x2 (fun p => x1 (ix2 p (0 : Fin 1))) x3 x5 (fun j => x4 (ix2 (0 : Fin 1) j)) p j := by
  unfold k3_pay1
  simp only [shapeCast_self]
  rw [addf_apply, addf_apply,
    show dot_S5000x128_S128x128_S5000x128_1_0_0_1_n_n = DotDims.plain 5000 128 128 from rfl,
    matmul0_apply, matmul0_apply, broadcastTo_1b_ab_apply]
  simp only [truncf_apply, divf_apply, broadcastTo_a1_ab_apply, maximumf_apply, broadcast_apply]
  rfl

/-! ## The layer over arrays with a count column and a bias row -/

/-- One layer over arrays whose count is a column [R, 1] and whose bias is a row [1, 128]. -/
def layer (relu : Bool) {R : Nat} (S X : (⟨2, ![R, 128]⟩ : Shape).Idx → EReal) (C : (⟨2, ![R, 1]⟩ : Shape).Idx → EReal)
    (Wl Wr : Net.SW.Idx → EReal) (B : (⟨2, ![1, 128]⟩ : Shape).Idx → EReal) : (⟨2, ![R, 128]⟩ : Shape).Idx → EReal :=
  Net.sageArr relu S X (fun i => C (ix2 (i 0) (0 : Fin 1))) Wl Wr (fun i => B (ix2 (0 : Fin 1) (i 0)))

/-- The count column read at (r, 0) is the count at r, and the bias row read at (0, j) is the bias at j. -/
theorem layer_eq (relu : Bool) {R : Nat} (S X : (⟨2, ![R, 128]⟩ : Shape).Idx → EReal) (cnt : (⟨1, ![R]⟩ : Shape).Idx → EReal)
    (Wl Wr : Net.SW.Idx → EReal) (b : Net.SB.Idx → EReal)
    (hc : (⟨1, ![R]⟩ : Shape).BroadcastsInDim ⟨2, ![R, 1]⟩ ![0]) (hb : (⟨1, ![128]⟩ : Shape).ShapeCasts ⟨2, ![1, 128]⟩) :
    layer relu S X (broadcastInDim ⟨2, ![R, 1]⟩ ![0] hc cnt) Wl Wr (shapeCast ⟨2, ![1, 128]⟩ b hb)
      = Net.sageArr relu S X cnt Wl Wr b := by
  have e1 : (fun i : (⟨1, ![R]⟩ : Shape).Idx => broadcastInDim ⟨2, ![R, 1]⟩ ![0] hc cnt (ix2 (i 0) (0 : Fin 1))) = cnt :=
    funext fun i => by
      obtain ⟨r, rfl⟩ : ∃ r : Fin R, i = ix1 r := ⟨i 0, eq_ix1 i⟩
      refine broadcastInDim_apply ![0] hc cnt (ix2 r (0 : Fin 1)) (ix1 r) fun a => ?_
      match a with
      | ⟨0, _⟩ =>
        show r.val = if R = 1 then 0 else r.val
        split
        · have := r.isLt; omega
        · rfl
  have e2 : (fun i : (⟨1, ![128]⟩ : Shape).Idx => shapeCast ⟨2, ![1, 128]⟩ b hb (ix2 (0 : Fin 1) (i 0))) = b :=
    funext fun i => by
      obtain ⟨j, rfl⟩ : ∃ j : Fin 128, i = ix1 j := ⟨i 0, eq_ix1 i⟩
      exact shapeCast_a_1a_apply b hb (0 : Fin 1) j
  unfold layer
  rw [e1, e2]

/-- Region 0's body at entry (p, q) of a block whose row p is row r of the arrays: the layer of the arrays at (r, q),
    when the loaded blocks agree with the arrays on that row and the weights and the bias row are loaded whole. -/
theorem point0 {R : Nat} (S X : (⟨2, ![R, 128]⟩ : Shape).Idx → EReal) (C : (⟨2, ![R, 1]⟩ : Shape).Idx → EReal)
    (Wl Wr : Net.SW.Idx → EReal) (B : (⟨2, ![1, 128]⟩ : Shape).Idx → EReal)
    (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (p : Fin 5000) (q : Fin 128) (r : Fin R)
    (h0 : ∀ k : Fin 128, x0 (ix2 p k) = S (ix2 r k)) (h1 : x1 (ix2 p (0 : Fin 1)) = C (ix2 r (0 : Fin 1)))
    (h2 : ∀ k : Fin 128, x2 (ix2 p k) = X (ix2 r k)) (h3 : x3 = Wl) (h4 : x4 = B) (h5 : x5 = Wr) :
    k0_pay1 x1 x0 x2 x3 x5 x4 (ix2 p q) = layer true S X C Wl Wr B (ix2 r q) := by
  rw [pay0_apply]
  subst h3 h4 h5
  unfold layer Net.sageArr Net.sageAt
  simp only [h0, h1, h2]
  rfl

/-- Region 1's body at entry (p, q) of a block whose row p is row r of the arrays: the layer of the arrays at (r, q),
    when the loaded blocks agree with the arrays on that row and the weights and the bias row are loaded whole. -/
theorem point1 {R : Nat} (S X : (⟨2, ![R, 128]⟩ : Shape).Idx → EReal) (C : (⟨2, ![R, 1]⟩ : Shape).Idx → EReal)
    (Wl Wr : Net.SW.Idx → EReal) (B : (⟨2, ![1, 128]⟩ : Shape).Idx → EReal)
    (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (p : Fin 5000) (q : Fin 128) (r : Fin R)
    (h0 : ∀ k : Fin 128, x0 (ix2 p k) = S (ix2 r k)) (h1 : x1 (ix2 p (0 : Fin 1)) = C (ix2 r (0 : Fin 1)))
    (h2 : ∀ k : Fin 128, x2 (ix2 p k) = X (ix2 r k)) (h3 : x3 = Wl) (h4 : x4 = B) (h5 : x5 = Wr) :
    k1_pay1 x1 x0 x2 x3 x5 x4 (ix2 p q) = layer true S X C Wl Wr B (ix2 r q) := by
  rw [pay1_apply]
  subst h3 h4 h5
  unfold layer Net.sageArr Net.sageAt
  simp only [h0, h1, h2]
  rfl

/-- Region 2's body at entry (p, q) of a block whose row p is row r of the arrays: the layer of the arrays at (r, q),
    when the loaded blocks agree with the arrays on that row and the weights and the bias row are loaded whole. -/
theorem point2 {R : Nat} (S X : (⟨2, ![R, 128]⟩ : Shape).Idx → EReal) (C : (⟨2, ![R, 1]⟩ : Shape).Idx → EReal)
    (Wl Wr : Net.SW.Idx → EReal) (B : (⟨2, ![1, 128]⟩ : Shape).Idx → EReal)
    (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (p : Fin 5000) (q : Fin 128) (r : Fin R)
    (h0 : ∀ k : Fin 128, x0 (ix2 p k) = S (ix2 r k)) (h1 : x1 (ix2 p (0 : Fin 1)) = C (ix2 r (0 : Fin 1)))
    (h2 : ∀ k : Fin 128, x2 (ix2 p k) = X (ix2 r k)) (h3 : x3 = Wl) (h4 : x4 = B) (h5 : x5 = Wr) :
    k2_pay1 x1 x0 x2 x3 x5 x4 (ix2 p q) = layer false S X C Wl Wr B (ix2 r q) := by
  rw [pay2_apply]
  subst h3 h4 h5
  unfold layer Net.sageArr Net.sageAt
  simp only [h0, h1, h2]
  rfl

/-- Region 3's body at entry (p, q) of a block whose row p is row r of the arrays: the layer of the arrays at (r, q),
    when the loaded blocks agree with the arrays on that row and the weights and the bias row are loaded whole. -/
theorem point3 {R : Nat} (S X : (⟨2, ![R, 128]⟩ : Shape).Idx → EReal) (C : (⟨2, ![R, 1]⟩ : Shape).Idx → EReal)
    (Wl Wr : Net.SW.Idx → EReal) (B : (⟨2, ![1, 128]⟩ : Shape).Idx → EReal)
    (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (p : Fin 5000) (q : Fin 128) (r : Fin R)
    (h0 : ∀ k : Fin 128, x0 (ix2 p k) = S (ix2 r k)) (h1 : x1 (ix2 p (0 : Fin 1)) = C (ix2 r (0 : Fin 1)))
    (h2 : ∀ k : Fin 128, x2 (ix2 p k) = X (ix2 r k)) (h3 : x3 = Wl) (h4 : x4 = B) (h5 : x5 = Wr) :
    k3_pay1 x1 x0 x2 x3 x5 x4 (ix2 p q) = layer false S X C Wl Wr B (ix2 r q) := by
  rw [pay3_apply]
  subst h3 h4 h5
  unfold layer Net.sageArr Net.sageAt
  simp only [h0, h1, h2]
  rfl

/-! ## From blocks to arrays -/

variable (V : (c : Dev nD) → (b : Ref sig .tc) → Buf (Elt Ideal) ((c : Thread nD τ).loc b))

/-- The zero offsets of a load or store of a whole staging buffer. -/
theorem hz : (![0, 0] : Fin 2 → Nat) = fun _ => 0 := funext fun a => by fin_cases a <;> rfl

/-! ## Region 0: 10000 rows in 2 blocks of 5000 -/

/-- The block indices at point t: the row windows (summed rows, count column, own rows, output) take block t of the
    rows and the only block of the columns; the weights and the bias row are one block. Decided over the 2 points. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the layer of the arrays the region finds: entry (p, q) of the block is
    entry (5000 t + p, q) of every row array, and the weights and the bias row are read whole. -/
theorem written0 (c : Dev nD) (t : Fin cfg0.N) :
    (dat0 (F := Ideal) V c).flushed 6 t = ((cfg0.win 6).blk t).view.read (Elt Ideal)
      (layer true (R := 10000) (V c main_v9) (V c main_arg1) (V c main_v14) (V c main_arg2) (V c main_arg4) (V c main_v15)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e60, e61⟩ := blockIdx0 t
  funext y
  obtain ⟨p, q, rfl⟩ : ∃ (p : Fin 5000) (q : Fin 128), y = ix2 p q := ⟨y 0, y 1, eq_ix2 y⟩
  have ht : t.val < 2 := lt_of_lt_of_eq t.isLt N_0
  have hx : (win0 6).xinj (grid0.coords t) (ix2 p q) = ix2 p q :=
    funext fun a => by match a with | ⟨0, _⟩ => rfl | ⟨1, _⟩ => rfl
  show k0_pay1 _ _ _ _ _ _ ((win0 6).xinj (grid0.coords t) (ix2 p q)) = _
  rw [hx]
  refine (point0 (V c main_v9) (V c main_arg1) (V c main_v14) (V c main_arg2) (V c main_arg4) (V c main_v15)
    (iblk0 V c 0 t) (iblk0 V c 1 t) (iblk0 V c 2 t) (iblk0 V c 3 t) (iblk0 V c 4 t) (iblk0 V c 5 t)
    p q ⟨t.val * 5000 + p.val, by omega⟩ ?_ ?_ ?_ ?_ ?_ ?_).trans ?_
  · intro k
    show V c main_v9 (((cfg0.win 0).blk t).view.emb (ix2 p k)) = _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · show V c main_v14 (((cfg0.win 1).blk t).view.emb (ix2 p (0 : Fin 1))) = _
    refine congrArg _ (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 1 + 1 * 0 = 0; rw [e11]
  · intro k
    show V c main_arg1 (((cfg0.win 2).blk t).view.emb (ix2 p k)) = _
    refine congrArg _ (funext fun a => Fin.ext ?_)
    match a with
    | ⟨0, _⟩ => show win0_2.index t (0 : Fin 2) * 5000 + 1 * p.val = t.val * 5000 + p.val; rw [e20]; omega
    | ⟨1, _⟩ => show win0_2.index t (1 : Fin 2) * 128 + 1 * k.val = k.val; rw [e21]; omega
  · funext y
    show V c main_arg2 (((cfg0.win 3).blk t).view.emb y) = _
    refine congrArg _ (funext fun a => Fin.ext ?_)
    match a with
    | ⟨0, _⟩ => show win0_3.index t (0 : Fin 2) * 128 + 1 * (y 0).val = (y 0).val; rw [e30]; omega
    | ⟨1, _⟩ => show win0_3.index t (1 : Fin 2) * 128 + 1 * (y 1).val = (y 1).val; rw [e31]; omega
  · funext y
    show V c main_v15 (((cfg0.win 4).blk t).view.emb y) = _
    refine congrArg _ (funext fun a => Fin.ext ?_)
    match a with
    | ⟨0, _⟩ => show win0_4.index t (0 : Fin 2) * 1 + 1 * (y 0).val = (y 0).val; rw [e40]; omega
    | ⟨1, _⟩ => show win0_4.index t (1 : Fin 2) * 128 + 1 * (y 1).val = (y 1).val; rw [e41]; omega
  · funext y
    show V c main_arg4 (((cfg0.win 5).blk t).view.emb y) = _
    refine congrArg _ (funext fun a => Fin.ext ?_)
    match a with
    | ⟨0, _⟩ => show win0_5.index t (0 : Fin 2) * 128 + 1 * (y 0).val = (y 0).val; rw [e50]; omega
    | ⟨1, _⟩ => show win0_5.index t (1 : Fin 2) * 128 + 1 * (y 1).val = (y 1).val; rw [e51]; omega
  · have hi : ((cfg0.win 6).blk t).view.emb (ix2 p q) = ix2 (⟨t.val * 5000 + p.val, by omega⟩ : Fin 10000) q :=
      funext fun a => Fin.ext (by
        match a with
        | ⟨0, _⟩ => show win0_6.index t (0 : Fin 2) * 5000 + 1 * p.val = t.val * 5000 + p.val; rw [e60]; omega
        | ⟨1, _⟩ => show win0_6.index t (1 : Fin 2) * 128 + 1 * q.val = q.val; rw [e61]; omega)
    rw [View.read_apply, hi]
    rfl

/-- An index of the array is in point t's block iff each coordinate is in the block's range on its axis. -/
theorem inBlock0 (t : Fin cfg0.N) (i : S10000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Row r lies in the block of point r / 5000, so the 2 blocks cover the array. -/
theorem covered0 (i : S10000x128.Idx) : ∃ t : Fin cfg0.N, (cfg0.win 6).flush t = true ∧ i ∈ ((cfg0.win 6).blk t).view.set := by
  have h0 : (i 0).val < 10000 := (i 0).isLt
  have h1 : (i 1).val < 128 := (i 1).isLt
  obtain ⟨t, ht⟩ : ∃ t : Fin cfg0.N, t.val = (i 0).val / 5000 :=
    ⟨⟨(i 0).val / 5000, lt_of_lt_of_eq (by omega : (i 0).val / 5000 < 2) N_0.symm⟩, rfl⟩
  obtain ⟨-, -, -, -, -, -, -, -, -, -, -, -, e60, e61⟩ := blockIdx0 t
  refine ⟨t, flush0_6 t, ?_⟩
  rw [inBlock0]
  intro a
  match a with
  | ⟨0, _⟩ =>
    show win0_6.index t (0 : Fin 2) * 5000 ≤ (i 0).val ∧ (i 0).val < win0_6.index t (0 : Fin 2) * 5000 + 5000
    rw [e60, ht]; omega
  | ⟨1, _⟩ =>
    show win0_6.index t (1 : Fin 2) * 128 ≤ (i 1).val ∧ (i 1).val < win0_6.index t (1 : Fin 2) * 128 + 128
    rw [e61]; omega

/-- The array region 0 leaves: the layer with the positive part of the arrays it finds. -/
theorem arr0 (c : Dev nD) (S X : Net.FA Net.SDn) (cnt : Net.FA Net.SDc) (Wl Wr : Net.FA Net.SW) (b : Net.FA Net.SB)
    (h0 : V c main_v9 = S) (h1 : V c main_v14 = broadcastInDim S10000x1 ![0] bcast_S10000_S10000x1_0 cnt)
    (h2 : V c main_arg1 = X) (h3 : V c main_arg2 = Wl)
    (h4 : V c main_v15 = shapeCast S1x128 b shapeCasts_S128_S1x128) (h5 : V c main_arg4 = Wr) :
    (dat0 (F := Ideal) V c).arrAt 6 cfg0.N = Net.sageArr true S X cnt Wl Wr b := by
  subst h0 h2 h3 h5
  rw [(dat0 (F := Ideal) V c).arrAt_eq_of_cover 6 _ (fun t _ => written0 V c t) covered0, h1, h4]
  exact layer_eq true _ _ cnt _ _ b _ _

/-! ## Region 1: 100000 rows in 20 blocks of 5000 -/

/-- The block indices at point t: the row windows (summed rows, count column, own rows, output) take block t of the
    rows and the only block of the columns; the weights and the bias row are one block. Decided over the 20 points. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the layer of the arrays the region finds: entry (p, q) of the block is
    entry (5000 t + p, q) of every row array, and the weights and the bias row are read whole. -/
theorem written1 (c : Dev nD) (t : Fin cfg1.N) :
    (dat1 (F := Ideal) V c).flushed 6 t = ((cfg1.win 6).blk t).view.read (Elt Ideal)
      (layer true (R := 100000) (V c main_v26) (V c main_arg0) (V c main_v31) (V c main_arg5) (V c main_arg7) (V c main_v32)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e60, e61⟩ := blockIdx1 t
  funext y
  obtain ⟨p, q, rfl⟩ : ∃ (p : Fin 5000) (q : Fin 128), y = ix2 p q := ⟨y 0, y 1, eq_ix2 y⟩
  have ht : t.val < 20 := lt_of_lt_of_eq t.isLt N_1
  have hx : (win1 6).xinj (grid1.coords t) (ix2 p q) = ix2 p q :=
    funext fun a => by match a with | ⟨0, _⟩ => rfl | ⟨1, _⟩ => rfl
  show k1_pay1 _ _ _ _ _ _ ((win1 6).xinj (grid1.coords t) (ix2 p q)) = _
  rw [hx]
  refine (point1 (V c main_v26) (V c main_arg0) (V c main_v31) (V c main_arg5) (V c main_arg7) (V c main_v32)
    (iblk1 V c 0 t) (iblk1 V c 1 t) (iblk1 V c 2 t) (iblk1 V c 3 t) (iblk1 V c 4 t) (iblk1 V c 5 t)
    p q ⟨t.val * 5000 + p.val, by omega⟩ ?_ ?_ ?_ ?_ ?_ ?_).trans ?_
  · intro k
    show V c main_v26 (((cfg1.win 0).blk t).view.emb (ix2 p k)) = _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · show V c main_v31 (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  · intro k
    show V c main_arg0 (((cfg1.win 2).blk t).view.emb (ix2 p k)) = _
    refine congrArg _ (funext fun a => Fin.ext ?_)
    match a with
    | ⟨0, _⟩ => show win1_2.index t (0 : Fin 2) * 5000 + 1 * p.val = t.val * 5000 + p.val; rw [e20]; omega
    | ⟨1, _⟩ => show win1_2.index t (1 : Fin 2) * 128 + 1 * k.val = k.val; rw [e21]; omega
  · funext y
    show V c main_arg5 (((cfg1.win 3).blk t).view.emb y) = _
    refine congrArg _ (funext fun a => Fin.ext ?_)
    match a with
    | ⟨0, _⟩ => show win1_3.index t (0 : Fin 2) * 128 + 1 * (y 0).val = (y 0).val; rw [e30]; omega
    | ⟨1, _⟩ => show win1_3.index t (1 : Fin 2) * 128 + 1 * (y 1).val = (y 1).val; rw [e31]; omega
  · funext y
    show V c main_v32 (((cfg1.win 4).blk t).view.emb y) = _
    refine congrArg _ (funext fun a => Fin.ext ?_)
    match a with
    | ⟨0, _⟩ => show win1_4.index t (0 : Fin 2) * 1 + 1 * (y 0).val = (y 0).val; rw [e40]; omega
    | ⟨1, _⟩ => show win1_4.index t (1 : Fin 2) * 128 + 1 * (y 1).val = (y 1).val; rw [e41]; omega
  · funext y
    show V c main_arg7 (((cfg1.win 5).blk t).view.emb y) = _
    refine congrArg _ (funext fun a => Fin.ext ?_)
    match a with
    | ⟨0, _⟩ => show win1_5.index t (0 : Fin 2) * 128 + 1 * (y 0).val = (y 0).val; rw [e50]; omega
    | ⟨1, _⟩ => show win1_5.index t (1 : Fin 2) * 128 + 1 * (y 1).val = (y 1).val; rw [e51]; omega
  · have hi : ((cfg1.win 6).blk t).view.emb (ix2 p q) = ix2 (⟨t.val * 5000 + p.val, by omega⟩ : Fin 100000) q :=
      funext fun a => Fin.ext (by
        match a with
        | ⟨0, _⟩ => show win1_6.index t (0 : Fin 2) * 5000 + 1 * p.val = t.val * 5000 + p.val; rw [e60]; omega
        | ⟨1, _⟩ => show win1_6.index t (1 : Fin 2) * 128 + 1 * q.val = q.val; rw [e61]; omega)
    rw [View.read_apply, hi]
    rfl

/-- An index of the array is in point t's block iff each coordinate is in the block's range on its axis. -/
theorem inBlock1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v33).slice (win1_6.rect t)).set ↔ _
  rw [View.set_slice_whole, Rect.mem_set_unit]
  exact Iff.rfl

/-- Row r lies in the block of point r / 5000, so the 20 blocks cover the array. -/
theorem covered1 (i : S100000x128.Idx) : ∃ t : Fin cfg1.N, (cfg1.win 6).flush t = true ∧ i ∈ ((cfg1.win 6).blk t).view.set := by
  have h0 : (i 0).val < 100000 := (i 0).isLt
  have h1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, -, -, e60, e61⟩ := blockIdx1 t
  refine ⟨t, flush1_6 t, ?_⟩
  rw [inBlock1]
  intro a
  match a with
  | ⟨0, _⟩ =>
    show win1_6.index t (0 : Fin 2) * 5000 ≤ (i 0).val ∧ (i 0).val < win1_6.index t (0 : Fin 2) * 5000 + 5000
    rw [e60, ht]; omega
  | ⟨1, _⟩ =>
    show win1_6.index t (1 : Fin 2) * 128 ≤ (i 1).val ∧ (i 1).val < win1_6.index t (1 : Fin 2) * 128 + 128
    rw [e61]; omega

/-- The array region 1 leaves: the layer with the positive part of the arrays it finds. -/
theorem arr1 (c : Dev nD) (S X : Net.FA Net.SRn) (cnt : Net.FA Net.SRc) (Wl Wr : Net.FA Net.SW) (b : Net.FA Net.SB)
    (h0 : V c main_v26 = S) (h1 : V c main_v31 = broadcastInDim S100000x1 ![0] bcast_S100000_S100000x1_0 cnt)
    (h2 : V c main_arg0 = X) (h3 : V c main_arg5 = Wl)
    (h4 : V c main_v32 = shapeCast S1x128 b shapeCasts_S128_S1x128) (h5 : V c main_arg7 = Wr) :
    (dat1 (F := Ideal) V c).arrAt 6 cfg1.N = Net.sageArr true S X cnt Wl Wr b := by
  subst h0 h2 h3 h5
  rw [(dat1 (F := Ideal) V c).arrAt_eq_of_cover 6 _ (fun t _ => written1 V c t) covered1, h1, h4]
  exact layer_eq true _ _ cnt _ _ b _ _

/-! ## Region 2: 10000 rows in 2 blocks of 5000 -/

/-- The block indices at point t: the row windows (summed rows, count column, own rows, output) take block t of the
    rows and the only block of the columns; the weights and the bias row are one block. Decided over the 2 points. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the layer of the arrays the region finds: entry (p, q) of the block is
    entry (5000 t + p, q) of every row array, and the weights and the bias row are read whole. -/
theorem written2 (c : Dev nD) (t : Fin cfg2.N) :
    (dat2 (F := Ideal) V c).flushed 6 t = ((cfg2.win 6).blk t).view.read (Elt Ideal)
      (layer false (R := 10000) (V c main_v43) (V c main_v16) (V c main_v48) (V c main_arg8) (V c main_arg10) (V c main_v49)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e60, e61⟩ := blockIdx2 t
  funext y
  obtain ⟨p, q, rfl⟩ : ∃ (p : Fin 5000) (q : Fin 128), y = ix2 p q := ⟨y 0, y 1, eq_ix2 y⟩
  have ht : t.val < 2 := lt_of_lt_of_eq t.isLt N_2
  have hx : (win2 6).xinj (grid2.coords t) (ix2 p q) = ix2 p q :=
    funext fun a => by match a with | ⟨0, _⟩ => rfl | ⟨1, _⟩ => rfl
  show k2_pay1 _ _ _ _ _ _ ((win2 6).xinj (grid2.coords t) (ix2 p q)) = _
  rw [hx]
  refine (point2 (V c main_v43) (V c main_v16) (V c main_v48) (V c main_arg8) (V c main_arg10) (V c main_v49)
    (iblk2 V c 0 t) (iblk2 V c 1 t) (iblk2 V c 2 t) (iblk2 V c 3 t) (iblk2 V c 4 t) (iblk2 V c 5 t)
    p q ⟨t.val * 5000 + p.val, by omega⟩ ?_ ?_ ?_ ?_ ?_ ?_).trans ?_
  · intro k
    show V c main_v43 (((cfg2.win 0).blk t).view.emb (ix2 p k)) = _
    refine congrArg _ (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · show V c main_v48 (((cfg2.win 1).blk t).view.emb (ix2 p (0 : Fin 1))) = _
    refine congrArg _ (funext fun a => Fin.ext ?_)
    match a with
    | ⟨0, _⟩ => show win2_1.index t (0 : Fin 2) * 5000 + 1 * p.val = t.val * 5000 + p.val; rw [e10]; omega
    | ⟨1, _⟩ => show win2_1.index t (1 : Fin 2) * 1 + 1 * 0 = 0; rw [e11]
  · intro k
    show V c main_v16 (((cfg2.win 2).blk t).view.emb (ix2 p k)) = _
    refine congrArg _ (funext fun a => Fin.ext ?_)
    match a with
    | ⟨0, _⟩ => show win2_2.index t (0 : Fin 2) * 5000 + 1 * p.val = t.val * 5000 + p.val; rw [e20]; omega
    | ⟨1, _⟩ => show win2_2.index t (1 : Fin 2) * 128 + 1 * k.val = k.val; rw [e21]; omega
  · funext y
    show V c main_arg8 (((cfg2.win 3).blk t).view.emb y) = _
    refine congrArg _ (funext fun a => Fin.ext ?_)
    match a with
    | ⟨0, _⟩ => show win2_3.index t (0 : Fin 2) * 128 + 1 * (y 0).val = (y 0).val; rw [e30]; omega
    | ⟨1, _⟩ => show win2_3.index t (1 : Fin 2) * 128 + 1 * (y 1).val = (y 1).val; rw [e31]; omega
  · funext y
    show V c main_v49 (((cfg2.win 4).blk t).view.emb y) = _
    refine congrArg _ (funext fun a => Fin.ext ?_)
    match a with
    | ⟨0, _⟩ => show win2_4.index t (0 : Fin 2) * 1 + 1 * (y 0).val = (y 0).val; rw [e40]; omega
    | ⟨1, _⟩ => show win2_4.index t (1 : Fin 2) * 128 + 1 * (y 1).val = (y 1).val; rw [e41]; omega
  · funext y
    show V c main_arg10 (((cfg2.win 5).blk t).view.emb y) = _
    refine congrArg _ (funext fun a => Fin.ext ?_)
    match a with
    | ⟨0, _⟩ => show win2_5.index t (0 : Fin 2) * 128 + 1 * (y 0).val = (y 0).val; rw [e50]; omega
    | ⟨1, _⟩ => show win2_5.index t (1 : Fin 2) * 128 + 1 * (y 1).val = (y 1).val; rw [e51]; omega
  · have hi : ((cfg2.win 6).blk t).view.emb (ix2 p q) = ix2 (⟨t.val * 5000 + p.val, by omega⟩ : Fin 10000) q :=
      funext fun a => Fin.ext (by
        match a with
        | ⟨0, _⟩ => show win2_6.index t (0 : Fin 2) * 5000 + 1 * p.val = t.val * 5000 + p.val; rw [e60]; omega
        | ⟨1, _⟩ => show win2_6.index t (1 : Fin 2) * 128 + 1 * q.val = q.val; rw [e61]; omega)
    rw [View.read_apply, hi]
    rfl

/-- An index of the array is in point t's block iff each coordinate is in the block's range on its axis. -/
theorem inBlock2 (t : Fin cfg2.N) (i : S10000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v50).slice (win2_6.rect t)).set ↔ _
  rw [View.set_slice_whole, Rect.mem_set_unit]
  exact Iff.rfl

/-- Row r lies in the block of point r / 5000, so the 2 blocks cover the array. -/
theorem covered2 (i : S10000x128.Idx) : ∃ t : Fin cfg2.N, (cfg2.win 6).flush t = true ∧ i ∈ ((cfg2.win 6).blk t).view.set := by
  have h0 : (i 0).val < 10000 := (i 0).isLt
  have h1 : (i 1).val < 128 := (i 1).isLt
  obtain ⟨t, ht⟩ : ∃ t : Fin cfg2.N, t.val = (i 0).val / 5000 :=
    ⟨⟨(i 0).val / 5000, lt_of_lt_of_eq (by omega : (i 0).val / 5000 < 2) N_2.symm⟩, rfl⟩
  obtain ⟨-, -, -, -, -, -, -, -, -, -, -, -, e60, e61⟩ := blockIdx2 t
  refine ⟨t, flush2_6 t, ?_⟩
  rw [inBlock2]
  intro a
  match a with
  | ⟨0, _⟩ =>
    show win2_6.index t (0 : Fin 2) * 5000 ≤ (i 0).val ∧ (i 0).val < win2_6.index t (0 : Fin 2) * 5000 + 5000
    rw [e60, ht]; omega
  | ⟨1, _⟩ =>
    show win2_6.index t (1 : Fin 2) * 128 ≤ (i 1).val ∧ (i 1).val < win2_6.index t (1 : Fin 2) * 128 + 128
    rw [e61]; omega

/-- The array region 2 leaves: the layer of the arrays it finds. -/
theorem arr2 (c : Dev nD) (S X : Net.FA Net.SDn) (cnt : Net.FA Net.SDc) (Wl Wr : Net.FA Net.SW) (b : Net.FA Net.SB)
    (h0 : V c main_v43 = S) (h1 : V c main_v48 = broadcastInDim S10000x1 ![0] bcast_S10000_S10000x1_0 cnt)
    (h2 : V c main_v16 = X) (h3 : V c main_arg8 = Wl)
    (h4 : V c main_v49 = shapeCast S1x128 b shapeCasts_S128_S1x128) (h5 : V c main_arg10 = Wr) :
    (dat2 (F := Ideal) V c).arrAt 6 cfg2.N = Net.sageArr false S X cnt Wl Wr b := by
  subst h0 h2 h3 h5
  rw [(dat2 (F := Ideal) V c).arrAt_eq_of_cover 6 _ (fun t _ => written2 V c t) covered2, h1, h4]
  exact layer_eq false _ _ cnt _ _ b _ _

/-! ## Region 3: 100000 rows in 20 blocks of 5000 -/

/-- The block indices at point t: the row windows (summed rows, count column, own rows, output) take block t of the
    rows and the only block of the columns; the weights and the bias row are one block. Decided over the 20 points. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of the layer of the arrays the region finds: entry (p, q) of the block is
    entry (5000 t + p, q) of every row array, and the weights and the bias row are read whole. -/
theorem written3 (c : Dev nD) (t : Fin cfg3.N) :
    (dat3 (F := Ideal) V c).flushed 6 t = ((cfg3.win 6).blk t).view.read (Elt Ideal)
      (layer false (R := 100000) (V c main_v60) (V c main_v33) (V c main_v65) (V c main_arg11) (V c main_arg13) (V c main_v66)) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e60, e61⟩ := blockIdx3 t
  funext y
  obtain ⟨p, q, rfl⟩ : ∃ (p : Fin 5000) (q : Fin 128), y = ix2 p q := ⟨y 0, y 1, eq_ix2 y⟩
  have ht : t.val < 20 := lt_of_lt_of_eq t.isLt N_3
  have hx : (win3 6).xinj (grid3.coords t) (ix2 p q) = ix2 p q :=
    funext fun a => by match a with | ⟨0, _⟩ => rfl | ⟨1, _⟩ => rfl
  show k3_pay1 _ _ _ _ _ _ ((win3 6).xinj (grid3.coords t) (ix2 p q)) = _
  rw [hx]
  refine (point3 (V c main_v60) (V c main_v33) (V c main_v65) (V c main_arg11) (V c main_arg13) (V c main_v66)
    (iblk3 V c 0 t) (iblk3 V c 1 t) (iblk3 V c 2 t) (iblk3 V c 3 t) (iblk3 V c 4 t) (iblk3 V c 5 t)
    p q ⟨t.val * 5000 + p.val, by omega⟩ ?_ ?_ ?_ ?_ ?_ ?_).trans ?_
  · intro k
    show V c main_v60 (((cfg3.win 0).blk t).view.emb (ix2 p k)) = _
    refine congrArg _ (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 128 + 1 * k.val = k.val; rw [e01]; omega
  · show V c main_v65 (((cfg3.win 1).blk t).view.emb (ix2 p (0 : Fin 1))) = _
    refine congrArg _ (funext fun a => Fin.ext ?_)
    match a with
    | ⟨0, _⟩ => show win3_1.index t (0 : Fin 2) * 5000 + 1 * p.val = t.val * 5000 + p.val; rw [e10]; omega
    | ⟨1, _⟩ => show win3_1.index t (1 : Fin 2) * 1 + 1 * 0 = 0; rw [e11]
  · intro k
    show V c main_v33 (((cfg3.win 2).blk t).view.emb (ix2 p k)) = _
    refine congrArg _ (funext fun a => Fin.ext ?_)
    match a with
    | ⟨0, _⟩ => show win3_2.index t (0 : Fin 2) * 5000 + 1 * p.val = t.val * 5000 + p.val; rw [e20]; omega
    | ⟨1, _⟩ => show win3_2.index t (1 : Fin 2) * 128 + 1 * k.val = k.val; rw [e21]; omega
  · funext y
    show V c main_arg11 (((cfg3.win 3).blk t).view.emb y) = _
    refine congrArg _ (funext fun a => Fin.ext ?_)
    match a with
    | ⟨0, _⟩ => show win3_3.index t (0 : Fin 2) * 128 + 1 * (y 0).val = (y 0).val; rw [e30]; omega
    | ⟨1, _⟩ => show win3_3.index t (1 : Fin 2) * 128 + 1 * (y 1).val = (y 1).val; rw [e31]; omega
  · funext y
    show V c main_v66 (((cfg3.win 4).blk t).view.emb y) = _
    refine congrArg _ (funext fun a => Fin.ext ?_)
    match a with
    | ⟨0, _⟩ => show win3_4.index t (0 : Fin 2) * 1 + 1 * (y 0).val = (y 0).val; rw [e40]; omega
    | ⟨1, _⟩ => show win3_4.index t (1 : Fin 2) * 128 + 1 * (y 1).val = (y 1).val; rw [e41]; omega
  · funext y
    show V c main_arg13 (((cfg3.win 5).blk t).view.emb y) = _
    refine congrArg _ (funext fun a => Fin.ext ?_)
    match a with
    | ⟨0, _⟩ => show win3_5.index t (0 : Fin 2) * 128 + 1 * (y 0).val = (y 0).val; rw [e50]; omega
    | ⟨1, _⟩ => show win3_5.index t (1 : Fin 2) * 128 + 1 * (y 1).val = (y 1).val; rw [e51]; omega
  · have hi : ((cfg3.win 6).blk t).view.emb (ix2 p q) = ix2 (⟨t.val * 5000 + p.val, by omega⟩ : Fin 100000) q :=
      funext fun a => Fin.ext (by
        match a with
        | ⟨0, _⟩ => show win3_6.index t (0 : Fin 2) * 5000 + 1 * p.val = t.val * 5000 + p.val; rw [e60]; omega
        | ⟨1, _⟩ => show win3_6.index t (1 : Fin 2) * 128 + 1 * q.val = q.val; rw [e61]; omega)
    rw [View.read_apply, hi]
    rfl

/-- An index of the array is in point t's block iff each coordinate is in the block's range on its axis. -/
theorem inBlock3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v67).slice (win3_6.rect t)).set ↔ _
  rw [View.set_slice_whole, Rect.mem_set_unit]
  exact Iff.rfl

/-- Row r lies in the block of point r / 5000, so the 20 blocks cover the array. -/
theorem covered3 (i : S100000x128.Idx) : ∃ t : Fin cfg3.N, (cfg3.win 6).flush t = true ∧ i ∈ ((cfg3.win 6).blk t).view.set := by
  have h0 : (i 0).val < 100000 := (i 0).isLt
  have h1 : (i 1).val < 128 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨-, -, -, -, -, -, -, -, -, -, -, -, e60, e61⟩ := blockIdx3 t
  refine ⟨t, flush3_6 t, ?_⟩
  rw [inBlock3]
  intro a
  match a with
  | ⟨0, _⟩ =>
    show win3_6.index t (0 : Fin 2) * 5000 ≤ (i 0).val ∧ (i 0).val < win3_6.index t (0 : Fin 2) * 5000 + 5000
    rw [e60, ht]; omega
  | ⟨1, _⟩ =>
    show win3_6.index t (1 : Fin 2) * 128 ≤ (i 1).val ∧ (i 1).val < win3_6.index t (1 : Fin 2) * 128 + 128
    rw [e61]; omega

/-- The array region 3 leaves: the layer of the arrays it finds. -/
theorem arr3 (c : Dev nD) (S X : Net.FA Net.SRn) (cnt : Net.FA Net.SRc) (Wl Wr : Net.FA Net.SW) (b : Net.FA Net.SB)
    (h0 : V c main_v60 = S) (h1 : V c main_v65 = broadcastInDim S100000x1 ![0] bcast_S100000_S100000x1_0 cnt)
    (h2 : V c main_v33 = X) (h3 : V c main_arg11 = Wl)
    (h4 : V c main_v66 = shapeCast S1x128 b shapeCasts_S128_S1x128) (h5 : V c main_arg13 = Wr) :
    (dat3 (F := Ideal) V c).arrAt 6 cfg3.N = Net.sageArr false S X cnt Wl Wr b := by
  subst h0 h2 h3 h5
  rw [(dat3 (F := Ideal) V c).arrAt_eq_of_cover 6 _ (fun t _ => written3 V c t) covered3, h1, h4]
  exact layer_eq false _ _ cnt _ _ b _ _

end Cert.KernelIdeal.SageValue

end
-- ==== Proof.KDecoder.lean ====
/-
  The kernel side of the decoder: what the fifth region of the idealized kernel program leaves in its [200000, 1]
  output array, re-read as a vector, as one whole-array function of the arrays the region finds.

  The region runs over 40 points. At point t the body reads rows 5000 t … 5000 t + 4999 of the two [200000, 128] row
  arrays (the r-rows and the d-rows at the labelled pairs) and, whole, the two [128, 128] halves of the first weight,
  its bias as a [1, 128] row, the [128, 1] output weights and the second bias as a [1, 1] array; it writes rows
  5000 t … of the output. For one row of a block the body's arithmetic is: the r-row times the first half plus the
  d-row times the second half, plus the bias, positive part (128 hidden units); the hidden units times the output
  weights plus the second bias; the logistic function. The changes of float format are the identity at the ideal
  values, and each product accumulates into zero.

  Since a row of the output depends on the same row of the two row arrays only, every point's block is a block of ONE
  function of the arrays (`arrOf`); the 40 blocks cover the array (row r lies in the block of point r / 5000), so
  the array after the region is that function. Read through the arrays the region finds — the two halves as slices of
  the [256, 128] weight, the biases as casts of vectors — and re-read as a vector, it is `Net.decArr`.
-/
import proofs.«104557_j1906965479431_1_alg».proof.Proof.Gen.KernelIdeal.Frame
import proofs.«104557_j1906965479431_1_alg».proof.Proof.Spec
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

set_option maxRecDepth 16384

noncomputable section

open scoped BigOperators

namespace Cert.KernelIdeal.DecoderValue

open Cert.KernelIdeal Cert.KernelIdeal.Gen Idealize.ShloMosaic Idealize.ShloMosaic.TcCoe Idealize.SL.Sem
open Idealize.ShloMosaic.ValueIdx Idealize.ShloMosaic.StackMember
open Idealize.ShloMosaic.Pipeline (Dat)

/-! ## The body's arithmetic at one row of a block -/

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- The logistic function of a block, read at an entry. -/
theorem logistic_apply {s : Shape} (v : FVec Ideal s .f32) (i : s.Idx) : logistic v i = Ideal.logistic (v i) := rfl

/-- Hidden unit j of row p of an [R, 128] pair of row arrays: the first row times the first weight block plus the
    second row times the second, plus the bias row's entry j; positive part. -/
def hidRow {R : Nat} (x0 x1 : (⟨2, ![R, 128]⟩ : Shape).Idx → EReal) (x2 x3 : S128x128.Idx → EReal)
    (x4 : S1x128.Idx → EReal) (p : Fin R) (j : Fin 128) : EReal :=
  max ((∑ k : Fin 128, x0 (ix2 p k) * x2 (ix2 k j) + ∑ k : Fin 128, x1 (ix2 p k) * x3 (ix2 k j))
    + x4 (ix2 (0 : Fin 1) j)) 0

/-- The output for row p: the hidden units times the output weights, plus the one-entry bias; logistic. -/
def decRow {R : Nat} (x0 x1 : (⟨2, ![R, 128]⟩ : Shape).Idx → EReal) (x2 x3 : S128x128.Idx → EReal)
    (x4 : S1x128.Idx → EReal) (x5 : S128x1.Idx → EReal) (x6 : S1x1.Idx → EReal) (p : Fin R) : EReal :=
  Ideal.logistic (∑ j : Fin 128, hidRow x0 x1 x2 x3 x4 p j * x5 (ix2 j (0 : Fin 1))
    + x6 (ix2 (0 : Fin 1) (0 : Fin 1)))

/-- The output for a row depends on the two row arrays through that row only. -/
theorem decRow_congr {R R' : Nat} (x0 x1 : (⟨2, ![R, 128]⟩ : Shape).Idx → EReal)
    (a0 a1 : (⟨2, ![R', 128]⟩ : Shape).Idx → EReal) (x2 x3 a2 a3 : S128x128.Idx → EReal)
    (x4 a4 : S1x128.Idx → EReal) (x5 a5 : S128x1.Idx → EReal) (x6 a6 : S1x1.Idx → EReal) (p : Fin R) (l : Fin R')
    (h0 : ∀ k : Fin 128, x0 (ix2 p k) = a0 (ix2 l k)) (h1 : ∀ k : Fin 128, x1 (ix2 p k) = a1 (ix2 l k))
    (h2 : x2 = a2) (h3 : x3 = a3) (h4 : x4 = a4) (h5 : x5 = a5) (h6 : x6 = a6) :
    decRow x0 x1 x2 x3 x4 x5 x6 p = decRow a0 a1 a2 a3 a4 a5 a6 l := by
  subst h2 h3 h4 h5 h6
  unfold decRow hidRow
  simp only [h0, h1]

/-- The body's result at row p: both products are plain, into zero accumulators; the changes of float format and the
    casts to the same shape are the identity; the bias row and the one-entry bias are laid along the rows. -/
theorem pay_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) :
    k4_pay1 (F := Ideal) x0 x1 x2 x3 x4 x5 x6 (ix2 p (0 : Fin 1)) = decRow (R := 5000) x0 x1 x2 x3 x4 x5 x6 p := by
  unfold k4_pay1
  simp only [shapeCast_self]
  have hD1 : dot_S5000x128_S128x128_S5000x128_1_0_0_1_n_n = DotDims.plain 5000 128 128 := rfl
  have hD2 : dot_S5000x128_S128x1_S5000x1_1_0_0_1_n_n = DotDims.plain 5000 128 1 := rfl
  rw [hD1, hD2, logistic_apply]
  unfold decRow hidRow
  refine congrArg Ideal.logistic ?_
  rw [addf_apply, broadcastTo_1b_ab_apply, matmul0_apply]
  refine congrArg₂ (· + ·) (Finset.sum_congr rfl fun j _ => ?_) rfl
  rw [truncf_apply, truncf_apply, relu_kernel_apply, addf_apply, addf_apply, broadcastTo_1b_ab_apply, matmul0_apply,
    matmul0_apply]
  rfl

/-- The same at any index of the block: its second coordinate is 0. -/
theorem pay_row (x0 x1 : Vec Ideal S5000x128 .f32) (x2 x3 : Vec Ideal S128x128 .f32) (x4 : Vec Ideal S1x128 .f32)
    (x5 : Vec Ideal S128x1 .f32) (x6 : Vec Ideal S1x1 .f32) (y : S5000x1.Idx) :
    k4_pay1 (F := Ideal) x0 x1 x2 x3 x4 x5 x6 y = decRow (R := 5000) x0 x1 x2 x3 x4 x5 x6 (y 0) := by
  obtain ⟨p, u, rfl⟩ : ∃ (p : Fin 5000) (u : Fin 1), y = ix2 p u := ⟨y 0, y 1, eq_ix2 y⟩
  obtain rfl : u = 0 := Subsingleton.elim u 0
  exact pay_apply x0 x1 x2 x3 x4 x5 x6 p

/-! ## From blocks to the array -/

theorem hz : (![0, 0] : Fin 2 → Nat) = fun _ => 0 := funext fun a => by fin_cases a <;> rfl

/-- The [200000, 1] array the region leaves, as one function of the arrays it finds: row l is the perceptron's output
    for row l of the two row arrays. -/
def arrOf (a0 a1 : S200000x128.Idx → EReal) (a2 a3 : S128x128.Idx → EReal) (a4 : S1x128.Idx → EReal)
    (a5 : S128x1.Idx → EReal) (a6 : S1x1.Idx → EReal) : S200000x1.Idx → EReal := fun i =>
  decRow (R := 200000) a0 a1 a2 a3 a4 a5 a6 (i 0)

/-- The windows' index maps, decided over the 40 points: the two row windows and the output move with the point along
    the rows; every other window stays on its whole array. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

variable (V : (c : Dev nD) → (b : Ref sig .tc) → Buf (Elt Ideal) ((c : Thread nD τ).loc b))

/-- The first row window's block at point t holds rows 5000 t … 5000 t + 4999 of its array. -/
theorem rows0 (c : Dev nD) (t : Fin cfg4.N) (p : Fin 5000) (k : Fin 128) (l : Fin 200000)
    (hl : l.val = t.val * 5000 + p.val) :
    (iblk4 V c 0 t : Vec Ideal S5000x128 .f32) (ix2 p k) = (V c main_v74 : S200000x128.Idx → EReal) (ix2 l k) := by
  obtain ⟨e0, e1, -⟩ := idx_facts t
  unfold iblk4
  rw [View.read_apply]
  refine congrArg (V c main_v74 : S200000x128.Idx → EReal) (funext fun a => Fin.ext ?_)
  match a with
  | ⟨0, _⟩ => show win4_0.index t (0 : Fin 2) * 5000 + 1 * p.val = l.val; rw [e0, hl]; omega
  | ⟨1, _⟩ => show win4_0.index t (1 : Fin 2) * 128 + 1 * k.val = k.val; rw [e1]; omega

/-- The second row window's block at point t holds the same rows of its array. -/
theorem rows1 (c : Dev nD) (t : Fin cfg4.N) (p : Fin 5000) (k : Fin 128) (l : Fin 200000)
    (hl : l.val = t.val * 5000 + p.val) :
    (iblk4 V c 1 t : Vec Ideal S5000x128 .f32) (ix2 p k) = (V c main_v81 : S200000x128.Idx → EReal) (ix2 l k) := by
  obtain ⟨-, -, e0, e1, -⟩ := idx_facts t
  unfold iblk4
  rw [View.read_apply]
  refine congrArg (V c main_v81 : S200000x128.Idx → EReal) (funext fun a => Fin.ext ?_)
  match a with
  | ⟨0, _⟩ => show win4_1.index t (0 : Fin 2) * 5000 + 1 * p.val = l.val; rw [e0, hl]; omega
  | ⟨1, _⟩ => show win4_1.index t (1 : Fin 2) * 128 + 1 * k.val = k.val; rw [e1]; omega

/-- The first weight block is its whole array at every point. -/
theorem whole2 (c : Dev nD) (t : Fin cfg4.N) :
    (iblk4 V c 2 t : Vec Ideal S128x128 .f32) = (V c main_v82 : S128x128.Idx → EReal) := by
  obtain ⟨-, -, -, -, e0, e1, -⟩ := idx_facts t
  funext y
  unfold iblk4
  rw [View.read_apply]
  refine congrArg (V c main_v82 : S128x128.Idx → EReal) (funext fun a => Fin.ext ?_)
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

/-- The second weight block likewise. -/
theorem whole3 (c : Dev nD) (t : Fin cfg4.N) :
    (iblk4 V c 3 t : Vec Ideal S128x128 .f32) = (V c main_v83 : S128x128.Idx → EReal) := by
  obtain ⟨-, -, -, -, -, -, e0, e1, -⟩ := idx_facts t
  funext y
  unfold iblk4
  rw [View.read_apply]
  refine congrArg (V c main_v83 : S128x128.Idx → EReal) (funext fun a => Fin.ext ?_)
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- The bias row likewise. -/
theorem whole4 (c : Dev nD) (t : Fin cfg4.N) :
    (iblk4 V c 4 t : Vec Ideal S1x128 .f32) = (V c main_v84 : S1x128.Idx → EReal) := by
  obtain ⟨-, -, -, -, -, -, -, -, e0, e1, -⟩ := idx_facts t
  funext y
  unfold iblk4
  rw [View.read_apply]
  refine congrArg (V c main_v84 : S1x128.Idx → EReal) (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- The output weights likewise. -/
theorem whole5 (c : Dev nD) (t : Fin cfg4.N) :
    (iblk4 V c 5 t : Vec Ideal S128x1 .f32) = (V c main_arg16 : S128x1.Idx → EReal) := by
  obtain ⟨-, -, -, -, -, -, -, -, -, -, e0, e1, -⟩ := idx_facts t
  funext y
  unfold iblk4
  rw [View.read_apply]
  refine congrArg (V c main_arg16 : S128x1.Idx → EReal) (funext fun a => Fin.ext ?_)
  match a with
  | ⟨0, _⟩ => show win4_5.index t (0 : Fin 2) * 128 + 1 * (y 0).val = (y 0).val; rw [e0]; omega
  | ⟨1, _⟩ => show win4_5.index t (1 : Fin 2) * 1 + 1 * (y 1).val = (y 1).val; rw [e1]; omega

/-- The one-entry bias likewise. -/
theorem whole6 (c : Dev nD) (t : Fin cfg4.N) :
    (iblk4 V c 6 t : Vec Ideal S1x1 .f32) = (V c main_v85 : S1x1.Idx → EReal) := by
  obtain ⟨-, -, -, -, -, -, -, -, -, -, -, -, e0, e1, -⟩ := idx_facts t
  funext y
  unfold iblk4
  rw [View.read_apply]
  refine congrArg (V c main_v85 : S1x1.Idx → EReal) (funext fun a => Fin.ext ?_)
  match a with
  | ⟨0, _⟩ => show win4_6.index t (0 : Fin 2) * 1 + 1 * (y 0).val = (y 0).val; rw [e0]; omega
  | ⟨1, _⟩ => show win4_6.index t (1 : Fin 2) * 1 + 1 * (y 1).val = (y 1).val; rw [e1]; omega

/-- What point t writes back is block t of `arrOf` of the arrays the region finds: the body's one store holds its
    payload, the payload at a row is the perceptron's output for that row of the point's blocks, and those blocks are
    rows 5000 t … of the two row arrays and the other arrays whole. -/
theorem flushed_eq (c : Dev nD) (t : Fin cfg4.N) :
    (dat4 (F := Ideal) V c).flushed 7 t = ((cfg4.win 7).blk t).view.read (Elt Ideal)
      (arrOf (V c main_v74) (V c main_v81) (V c main_v82) (V c main_v83) (V c main_v84) (V c main_arg16)
        (V c main_v85)) := by
  show (cfg4.win 7).cut (grid4.coords t) ((dat4 V c).after 7 t) = _
  rw [after4_7]
  unfold out4_7
  rw [View.canon_unit_zero hz]
  simp only [View.ld_unit_zero (S := S5000x128) hz, View.ld_unit_zero (S := S128x128) hz,
    View.ld_unit_zero (S := S1x128) hz, View.ld_unit_zero (S := S128x1) hz, View.ld_unit_zero (S := S1x1) hz]
  obtain ⟨-, -, -, -, -, -, -, -, -, -, -, -, -, -, e0, e1⟩ := idx_facts t
  funext j
  rw [View.read_apply]
  refine (pay_row (iblk4 V c 0 t) (iblk4 V c 1 t) (iblk4 V c 2 t) (iblk4 V c 3 t) (iblk4 V c 4 t) (iblk4 V c 5 t)
    (iblk4 V c 6 t) j).trans ?_
  have hj : (j 0).val < 5000 := (j 0).isLt
  have hl : ((((cfg4.win 7).blk t).view.emb j) 0).val = t.val * 5000 + (j 0).val := by
    show win4_7.index t (0 : Fin 2) * 5000 + 1 * (j 0).val = _
    rw [e0]; omega
  exact decRow_congr _ _ _ _ _ _ _ _ _ _ _ _ _ _ (j 0) ((((cfg4.win 7).blk t).view.emb j) 0)
    (fun k => rows0 V c t (j 0) k _ hl) (fun k => rows1 V c t (j 0) k _ hl)
    (whole2 V c t) (whole3 V c t) (whole4 V c t) (whole5 V c t) (whole6 V c t)

/-- An index of the array is in point t's block iff each coordinate is in the block's range on its axis. -/
theorem mem_blk (t : Fin cfg4.N) (i : S200000x1.Idx) :
    i ∈ ((cfg4.win 7).blk t).view.set ↔ ∀ a : Fin 2, win4_7.index t a * S5000x1.size a ≤ (i a).val
      ∧ (i a).val < win4_7.index t a * S5000x1.size a + S5000x1.size a := by
  show i ∈ ((View.whole main_v86).slice (win4_7.rect t)).set ↔ _
  rw [View.set_slice_whole, Rect.mem_set_unit]
  exact Iff.rfl

/-- Row r of the array is in the block of point r / 5000. -/
theorem cover (i : S200000x1.Idx) :
    ∃ t : Fin cfg4.N, (cfg4.win 7).flush t = true ∧ i ∈ ((cfg4.win 7).blk t).view.set := by
  have hi0 : (i 0).val < 200000 := (i 0).isLt
  have hi1 : (i 1).val < 1 := (i 1).isLt
  have hN : cfg4.N = 40 := N_4
  have ht : (i 0).val / 5000 < cfg4.N := by rw [hN]; omega
  obtain ⟨-, -, -, -, -, -, -, -, -, -, -, -, -, -, e0, e1⟩ := idx_facts ⟨(i 0).val / 5000, ht⟩
  refine ⟨⟨(i 0).val / 5000, ht⟩, flush4_7 _, ?_⟩
  rw [mem_blk]
  intro a
  match a with
  | ⟨0, _⟩ =>
    show win4_7.index ⟨(i 0).val / 5000, ht⟩ (0 : Fin 2) * 5000 ≤ (i 0).val
      ∧ (i 0).val < win4_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_7.index ⟨(i 0).val / 5000, ht⟩ (1 : Fin 2) * 1 ≤ (i 1).val
      ∧ (i 1).val < win4_7.index ⟨(i 0).val / 5000, ht⟩ (1 : Fin 2) * 1 + 1
    rw [e1]; omega

/-- So the output array after the region is `arrOf` of the arrays the region finds. -/
theorem arr_eq (c : Dev nD) :
    (dat4 (F := Ideal) V c).arrAt 7 cfg4.N
      = arrOf (V c main_v74) (V c main_v81) (V c main_v82) (V c main_v83) (V c main_v84) (V c main_arg16)
        (V c main_v85) :=
  (dat4 V c).arrAt_eq_of_cover 7 _ (fun t _ => flushed_eq V c t) cover

/-! ## The arrays the region finds, and the result as a vector -/

/-- A vector cast to a one-row matrix reads, at (0, j), the vector at j. -/
theorem rowcast_apply {α : Type} {N : Nat} (bl : (⟨1, ![N]⟩ : Shape).Idx → α)
    (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

/-- A column [a, 1] cast to the vector [a] reads, at i, the operand at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The first 128 rows of the [256, 128] weight, read at (k, j), are the weight at (k, j). -/
theorem slice_lo_apply {α : Type} (W1 : S256x128.Idx → α) (h : S256x128.Slices ![0, 0] S128x128) (k j : Fin 128) :
    extractStridedSlice S128x128 ![0, 0] W1 h (ix2 k j) = W1 (ix2 (Fin.castLE (by decide) k : Fin 256) j) :=
  extractStridedSlice_apply _ _ _ _ _ (fun a => by
    match a with
    | ⟨0, _⟩ => exact (Nat.zero_add _).symm
    | ⟨1, _⟩ => exact (Nat.zero_add _).symm)

/-- Its last 128 rows, read at (k, j), are the weight at (128 + k, j). -/
theorem slice_hi_apply {α : Type} (W1 : S256x128.Idx → α) (h : S256x128.Slices ![128, 0] S128x128) (k j : Fin 128) :
    extractStridedSlice S128x128 ![128, 0] W1 h (ix2 k j) = W1 (ix2 (Fin.natAdd 128 k : Fin 256) j) :=
  extractStridedSlice_apply _ _ _ _ _ (fun a => by
    match a with
    | ⟨0, _⟩ => rfl
    | ⟨1, _⟩ => exact (Nat.zero_add _).symm)

/-- The region's output, re-read as a vector, is the perceptron over all pairs: of the two row arrays, of the weight
    whose two halves the region finds as two arrays, of the bias it finds as a row, of the output weights and of the
    one-entry bias it finds as a [1, 1] array. -/
theorem arr4 (c : Dev nD) (zr zd : Net.FA Net.SLn) (W1 : Net.FA Net.SW1) (b1 : Net.FA Net.SB) (W2 : Net.FA Net.SW2) (b2 : Net.FA Net.SB2)
    (h0 : V c main_v74 = zr) (h1 : V c main_v81 = zd)
    (h2 : V c main_v82 = extractStridedSlice S128x128 ![0, 0] W1 slices_S256x128_S128x128_0_0)
    (h3 : V c main_v83 = extractStridedSlice S128x128 ![128, 0] W1 slices_S256x128_S128x128_128_0)
    (h4 : V c main_v84 = shapeCast S1x128 b1 shapeCasts_S128_S1x128)
    (h5 : V c main_arg16 = W2)
    (h6 : V c main_v85 = shapeCast S1x1 b2 shapeCasts_S1_S1x1) :
    shapeCast S200000 ((dat4 (F := Ideal) V c).arrAt 7 cfg4.N) shapeCasts_S200000x1_S200000 = Net.decArr zr zd W1 b1 W2 b2 := by
  rw [arr_eq V c, h0, h1, h2, h3, h4, h5, h6]
  funext i
  obtain ⟨l, rfl⟩ : ∃ l : Fin 200000, i = ix1 l := ⟨i 0, eq_ix1 i⟩
  rw [shapeCast_a1_a_apply]
  show decRow (R := 200000) zr zd _ _ _ W2 _ l = Net.decAt zr zd W1 (fun j => b1 (ix1 j)) W2 (b2 (ix1 (0 : Fin 1))) l
  unfold decRow hidRow Net.decAt Net.hidAt
  simp only [slice_lo_apply, slice_hi_apply, rowcast_apply]

end Cert.KernelIdeal.DecoderValue

end
-- ==== Proof.KChain.lean ====
/-
  The idealized kernel program's result as the network's function of its argument arrays.

  The program is six stretches of host operations with five kernel regions between them; the contents of its buffers
  at the eleven boundaries are the generated fold `W0 … W11`. Going along it: the first stretch leaves the summed rows,
  the counts and the bias row of the first layer for the d-nodes, and region 0's output array is that layer
  (`Net.hD`); the next stretch and region 1 give the first layer for the r-nodes (`Net.hR`); stretches 2 and 3 sum the
  first layer's rows along the edges and regions 2 and 3 give the embeddings (`Net.zD`, `Net.zR`); stretch 4 selects
  the embeddings at the labelled pairs and region 4 is the perceptron; the last stretch re-reads its column as a vector
  (`Net.out`). Each step reads the stretch's buffers off the previous boundary and the region's array off the blocks
  its points wrote; buffers nothing writes in between are carried along unchanged.
-/
import proofs.«104557_j1906965479431_1_alg».proof.Proof.KKeep
import proofs.«104557_j1906965479431_1_alg».proof.Proof.KStretch
import proofs.«104557_j1906965479431_1_alg».proof.Proof.KSage
import proofs.«104557_j1906965479431_1_alg».proof.Proof.KDecoder

set_option maxRecDepth 16384

noncomputable section

namespace Cert.KernelIdeal.Chain

open Cert.KernelIdeal Cert.KernelIdeal.Gen Cert.KernelIdeal.Host Cert.KernelIdeal.Keep Cert.KernelIdeal.Stretch
open Idealize.ShloMosaic Idealize.ShloMosaic.TcCoe Idealize.SL.Sem

variable (m : (ℓ : Loc nD τ sig) → Buf (Elt Ideal) ℓ) (ρ : Dev nD → PrngReg)

/-- Region 0's output array: the d-nodes after the first layer. -/
theorem hD_at2 (c : Dev nD) : W2 m ρ c (Proc.devRef .tc main_v16) = Net.hD fns (args m c) :=
  (W2_arr m ρ c 6).trans (SageValue.arr0 (V1 m ρ) c
    (fns.aggRD (args m c).xr (args m c).srcRD (args m c).dstRD) (args m c).xd (fns.cntRD (args m c).dstRD)
    (args m c).w1rdl (args m c).w1rdr (args m c).b1rd
    (s0_v9 (W0 m ρ c)) (s0_v14 (W0 m ρ c)) (a1_at1 m ρ c) (a2_at1 m ρ c) (s0_v15 (W0 m ρ c)) (a4_at1 m ρ c))

/-- Region 1's output array: the r-nodes after the first layer. -/
theorem hR_at4 (c : Dev nD) : W4 m ρ c (Proc.devRef .tc main_v33) = Net.hR fns (args m c) :=
  (W4_arr m ρ c 6).trans (SageValue.arr1 (V3 m ρ) c
    (fns.aggDR (args m c).xd (args m c).srcDR (args m c).dstDR) (args m c).xr (fns.cntDR (args m c).dstDR)
    (args m c).w1drl (args m c).w1drr (args m c).b1dr
    ((s1_v26 (W2 m ρ c)).trans (by rw [a1_at2 m ρ c, a20_at2 m ρ c, a21_at2 m ρ c]; rfl))
    ((s1_v31 (W2 m ρ c)).trans (by rw [a21_at2 m ρ c]; rfl))
    (a0_at3 m ρ c) (a5_at3 m ρ c)
    ((s1_v32 (W2 m ρ c)).trans (by rw [a6_at2 m ρ c]; rfl))
    (a7_at3 m ρ c))

/-- Region 2's output array: the d-nodes' embeddings. -/
theorem zD_at6 (c : Dev nD) : W6 m ρ c (Proc.devRef .tc main_v50) = Net.zD fns (args m c) :=
  (W6_arr m ρ c 6).trans (SageValue.arr2 (V5 m ρ) c
    (fns.aggRD (Net.hR fns (args m c)) (args m c).srcRD (args m c).dstRD) (Net.hD fns (args m c)) (fns.cntRD (args m c).dstRD)
    (args m c).w2rdl (args m c).w2rdr (args m c).b2rd
    ((s2_v43 (W4 m ρ c)).trans (by rw [hR_at4 m ρ c, a18_at4 m ρ c, a19_at4 m ρ c]; rfl))
    ((s2_v48 (W4 m ρ c)).trans (by rw [a19_at4 m ρ c]; rfl))
    ((v16_at5 m ρ c).trans (hD_at2 m ρ c)) (a8_at5 m ρ c)
    ((s2_v49 (W4 m ρ c)).trans (by rw [a9_at4 m ρ c]; rfl))
    (a10_at5 m ρ c))

/-- Region 3's output array: the r-nodes' embeddings. -/
theorem zR_at8 (c : Dev nD) : W8 m ρ c (Proc.devRef .tc main_v67) = Net.zR fns (args m c) :=
  (W8_arr m ρ c 6).trans (SageValue.arr3 (V7 m ρ) c
    (fns.aggDR (Net.hD fns (args m c)) (args m c).srcDR (args m c).dstDR) (Net.hR fns (args m c)) (fns.cntDR (args m c).dstDR)
    (args m c).w2drl (args m c).w2drr (args m c).b2dr
    ((s3_v60 (W6 m ρ c)).trans (by rw [(v16_at6 m ρ c).trans (hD_at2 m ρ c), a20_at6 m ρ c, a21_at6 m ρ c]; rfl))
    ((s3_v65 (W6 m ρ c)).trans (by rw [a21_at6 m ρ c]; rfl))
    ((v33_at7 m ρ c).trans (hR_at4 m ρ c)) (a11_at7 m ρ c)
    ((s3_v66 (W6 m ρ c)).trans (by rw [a12_at6 m ρ c]; rfl))
    (a13_at7 m ρ c))

/-- The program's result array after the last stretch: the network's result. -/
theorem out_at11 (c : Dev nD) : W11 m ρ c (Proc.devRef .tc main_v87) = Net.out fns (args m c) :=
  (s5_v87 (W10 m ρ c)).trans ((congrArg (fun x => shapeCast S200000 x shapeCasts_S200000x1_S200000) (W10_arr m ρ c 7)).trans
    (DecoderValue.arr4 (V9 m ρ) c
      (fns.selR (Net.zR fns (args m c)) (args m c).labR) (fns.selD (Net.zD fns (args m c)) (args m c).labD)
      (args m c).dW1 (args m c).db1 (args m c).dW2 (args m c).db2
      ((s4_v74 (W8 m ρ c)).trans (by rw [zR_at8 m ρ c, a22_at8 m ρ c]; rfl))
      ((s4_v81 (W8 m ρ c)).trans (by rw [(v50_at8 m ρ c).trans (zD_at6 m ρ c), a23_at8 m ρ c]; rfl))
      ((s4_v82 (W8 m ρ c)).trans (by rw [a14_at8 m ρ c]; rfl))
      ((s4_v83 (W8 m ρ c)).trans (by rw [a14_at8 m ρ c]; rfl))
      ((s4_v84 (W8 m ρ c)).trans (by rw [a15_at8 m ρ c]; rfl))
      (a16_at9 m ρ c)
      ((s4_v85 (W8 m ρ c)).trans (by rw [a17_at8 m ρ c]; rfl))))

end Cert.KernelIdeal.Chain

end
-- ==== Proof.RHost.lean ====
/-
  The host operations the two programs share, as the reference spells them, gathered into the record the
  specification takes, and the program's argument arrays as the specification's arguments.
-/
import proofs.«104557_j1906965479431_1_alg».proof.Proof.Gen.ReferenceIdeal
import proofs.«104557_j1906965479431_1_alg».proof.Proof.Spec

noncomputable section

namespace Cert.ReferenceIdeal.Host

open Idealize.ShloMosaic Idealize.SL.Sem Cert.ReferenceIdeal Cert.ReferenceIdeal.Facts₀

/-- An index vector over the edges with negative entries wrapped by `n`, as a column. -/
def colE (n : BitVec 32) (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 n))) src)

/-- An index vector over the labelled pairs with negative entries wrapped by `n`, as a column. -/
def colL (n : BitVec 32) (lab : (⟨S200000, .i32⟩ : BufTy).Contents (Elt Ideal)) : (⟨S200000x1, .i32⟩ : BufTy).Contents (Elt Ideal) :=
  broadcastInDim S200000x1 ![0] bcast_S200000_S200000x1_0
    (select (cmpi .slt lab (broadcastInDim S200000 ![] bcast_S_S200000 (constantI S_ 32 0#32)))
      (addi lab (broadcastInDim S200000 ![] bcast_S_S200000 (constantI S_ 32 n))) lab)

/-- The six shared host functions, as this program spells them. -/
def fns : Net.HostFns where
  aggRD x src dst :=
    Host.scatterAdd (F := Ideal) scatter_S10000x128_S1600000x1_S1600000x128_1_0_0_1
      (broadcastInDim S10000x128 ![] bcast_S_S10000x128 (constant (F := Ideal) S_ .f32 0x00000000#32))
      (broadcastInDim S1600000x1 ![0] bcast_S1600000_S1600000x1_0 dst)
      (Host.gather gather_S100000x128_S1600000x1_S1600000x128_1_0_n_n_0_1_1128 x (colE 100000#32 src))
  aggDR x src dst :=
    Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S10000x128_S1600000x1_S1600000x128_1_0_n_n_0_1_1128 x (colE 10000#32 src))
  cntRD dst :=
    Host.scatterAdd (F := Ideal) scatter_S10000_S1600000x1_S1600000_n_0_0_1
      (broadcastInDim S10000 ![] bcast_S_S10000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32))
  cntDR dst :=
    Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32))
  selR z lab := Host.gather gather_S100000x128_S200000x1_S200000x128_1_0_n_n_0_1_1128 z (colL 100000#32 lab)
  selD z lab := Host.gather gather_S10000x128_S200000x1_S200000x128_1_0_n_n_0_1_1128 z (colL 10000#32 lab)

/-- The program's argument arrays on core `c`, in its memory `m`, as the specification's arguments. -/
def args (m : (ℓ : Loc nD τ sig) → Buf (Elt Ideal) ℓ) (c : Dev nD) : Net.Args where
  xr := m ((c.tc : Thread nD τ).loc main_arg0)
  xd := m ((c.tc : Thread nD τ).loc main_arg1)
  w1rdl := m ((c.tc : Thread nD τ).loc main_arg2)
  b1rd := m ((c.tc : Thread nD τ).loc main_arg3)
  w1rdr := m ((c.tc : Thread nD τ).loc main_arg4)
  w1drl := m ((c.tc : Thread nD τ).loc main_arg5)
  b1dr := m ((c.tc : Thread nD τ).loc main_arg6)
  w1drr := m ((c.tc : Thread nD τ).loc main_arg7)
  w2rdl := m ((c.tc : Thread nD τ).loc main_arg8)
  b2rd := m ((c.tc : Thread nD τ).loc main_arg9)
  w2rdr := m ((c.tc : Thread nD τ).loc main_arg10)
  w2drl := m ((c.tc : Thread nD τ).loc main_arg11)
  b2dr := m ((c.tc : Thread nD τ).loc main_arg12)
  w2drr := m ((c.tc : Thread nD τ).loc main_arg13)
  dW1 := m ((c.tc : Thread nD τ).loc main_arg14)
  db1 := m ((c.tc : Thread nD τ).loc main_arg15)
  dW2 := m ((c.tc : Thread nD τ).loc main_arg16)
  db2 := m ((c.tc : Thread nD τ).loc main_arg17)
  srcRD := m ((c.tc : Thread nD τ).loc main_arg18)
  dstRD := m ((c.tc : Thread nD τ).loc main_arg19)
  srcDR := m ((c.tc : Thread nD τ).loc main_arg20)
  dstDR := m ((c.tc : Thread nD τ).loc main_arg21)
  labR := m ((c.tc : Thread nD τ).loc main_arg22)
  labD := m ((c.tc : Thread nD τ).loc main_arg23)

end Cert.ReferenceIdeal.Host

end
-- ==== Proof.RSage.lean ====
/-
  The reference program's first layer, for each node kind, is the specification's layer array.

  One dense layer of the host program, read at an entry: the summed rows divided by the count (at least one), times
  the first weight matrix, plus the bias (a vector laid as one row, the row laid along every row), plus the node's
  own row times the second weight matrix. The count is a vector laid as a column and the column along every row, so
  that entry (p, k) of the divisor is the count of node p. Each of the two first-layer stages of the program is then this layer (followed by the positive part) applied to
  the shared host operations' results, which stay unopened.
-/
import proofs.«104557_j1906965479431_1_alg».proof.Proof.Gen.ReferenceIdeal.Read
import proofs.«104557_j1906965479431_1_alg».proof.Proof.RHost
import proofs.«104557_j1906965479431_1_alg».proof.Proof.Spec
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

set_option maxRecDepth 16384

noncomputable section

open scoped BigOperators

namespace Cert.ReferenceIdeal.SageValue

open Cert.ReferenceIdeal Cert.ReferenceIdeal.Read Cert.ReferenceIdeal.Host Idealize.ShloMosaic
open Idealize.ShloMosaic.ValueIdx Idealize.ShloMosaic.StackMember

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- A vector laid as a column (axis 0 of an [R, 1] matrix), read at (p, 0), is the vector at p. -/
theorem broadcastInDim_vecCol_apply {α : Type} {R : Nat} (h1 : (⟨1, ![R]⟩ : Shape).BroadcastsInDim ⟨2, ![R, 1]⟩ ![0])
    (c : (⟨1, ![R]⟩ : Shape).Idx → α) (p : Fin R) :
    broadcastInDim ⟨2, ![R, 1]⟩ ![0] h1 c (ix2 p (0 : Fin 1)) = c (ix1 p) := by
  refine broadcastInDim_apply ![0] h1 c (ix2 p (0 : Fin 1)) (ix1 p) ?_
  intro a
  match a with
  | ⟨0, _⟩ =>
    show p.val = if R = 1 then 0 else p.val
    split
    · have := p.isLt; omega
    · rfl

/-- A column laid along every column of an [R, N] matrix, read at (p, k), is the column at (p, 0). -/
theorem broadcastInDim_oneCol_apply {α : Type} {R N : Nat} (h2 : (⟨2, ![R, 1]⟩ : Shape).BroadcastsInDim ⟨2, ![R, N]⟩ ![0, 1])
    (y : (⟨2, ![R, 1]⟩ : Shape).Idx → α) (p : Fin R) (k : Fin N) :
    broadcastInDim ⟨2, ![R, N]⟩ ![0, 1] h2 y (ix2 p k) = y (ix2 p (0 : Fin 1)) := by
  refine broadcastInDim_apply ![0, 1] h2 y (ix2 p k) (ix2 p (0 : Fin 1)) ?_
  intro a
  match a with
  | ⟨0, _⟩ =>
    show p.val = if R = 1 then 0 else p.val
    split
    · have := p.isLt; omega
    · rfl
  | ⟨1, _⟩ =>
    show (0 : ℕ) = if (1 : ℕ) = 1 then 0 else k.val
    rw [if_pos rfl]

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The count of node p, at least one, as entry (p, k) of the divisor: the maximum of the count vector with a scalar
    one broadcast, laid as a column, the column laid along every row. -/
theorem divisor_apply {R : Nat} (cnt : FVec Ideal ⟨1, ![R]⟩ .f32)
    (h0 : (⟨0, ![]⟩ : Shape).BroadcastsInDim ⟨1, ![R]⟩ ![])
    (hc1 : (⟨1, ![R]⟩ : Shape).BroadcastsInDim ⟨2, ![R, 1]⟩ ![0])
    (hc2 : (⟨2, ![R, 1]⟩ : Shape).BroadcastsInDim ⟨2, ![R, 128]⟩ ![0, 1]) (p : Fin R) (k : Fin 128) :
    broadcastInDim ⟨2, ![R, 128]⟩ ![0, 1] hc2 (broadcastInDim ⟨2, ![R, 1]⟩ ![0] hc1
      (maximumf cnt (broadcastInDim ⟨1, ![R]⟩ ![] h0 (constant (F := Ideal) ⟨0, ![]⟩ .f32 0x3F800000#32)))) (ix2 p k)
      = max (cnt (ix1 p)) (Ideal.ofBits .f32 0x3F800000#32) := by
  rw [broadcastInDim_oneCol_apply, broadcastInDim_vecCol_apply, maximumf_apply]
  refine congrArg (max (cnt (ix1 p))) ?_
  exact (broadcastInDim_apply ![] h0 (constant (F := Ideal) ⟨0, ![]⟩ .f32 0x3F800000#32) (ix1 p) (fun a => a.elim0)
    (fun a => a.elim0))

/-- The host's layer at entry (p, j). The dimension numbers are any record equal to the plain ones. -/
theorem host_sage_apply {R : Nat} (D : DotDims ⟨2, ![R, 128]⟩ ⟨2, ![128, 128]⟩ ⟨2, ![R, 128]⟩) (hD : D = DotDims.plain R 128 128)
    (S X : FVec Ideal ⟨2, ![R, 128]⟩ .f32) (cnt : FVec Ideal ⟨1, ![R]⟩ .f32) (Wl Wr : FVec Ideal ⟨2, ![128, 128]⟩ .f32)
    (b : FVec Ideal ⟨1, ![128]⟩ .f32)
    (h0 : (⟨0, ![]⟩ : Shape).BroadcastsInDim ⟨1, ![R]⟩ ![])
    (hc1 : (⟨1, ![R]⟩ : Shape).BroadcastsInDim ⟨2, ![R, 1]⟩ ![0])
    (hc2 : (⟨2, ![R, 1]⟩ : Shape).BroadcastsInDim ⟨2, ![R, 128]⟩ ![0, 1])
    (h1 : (⟨1, ![128]⟩ : Shape).BroadcastsInDim ⟨2, ![1, 128]⟩ ![1])
    (h2 : (⟨2, ![1, 128]⟩ : Shape).BroadcastsInDim ⟨2, ![R, 128]⟩ ![0, 1])
    (p : Fin R) (j : Fin 128) :
    addf (addf (Host.dotGeneral D none
            (Host.divf (F := Ideal) S (broadcastInDim ⟨2, ![R, 128]⟩ ![0, 1] hc2 (broadcastInDim ⟨2, ![R, 1]⟩ ![0] hc1
              (maximumf cnt (broadcastInDim ⟨1, ![R]⟩ ![] h0 (constant (F := Ideal) ⟨0, ![]⟩ .f32 0x3F800000#32)))))) Wl)
          (broadcastInDim ⟨2, ![R, 128]⟩ ![0, 1] h2 (broadcastInDim ⟨2, ![1, 128]⟩ ![1] h1 b)))
      (Host.dotGeneral D none X Wr) (ix2 p j)
      = Net.sageAt S X (fun p => cnt (ix1 p)) Wl Wr (fun j => b (ix1 j)) p j := by
  subst hD
  rw [addf_apply, addf_apply, broadcastInDim_oneRow_apply, broadcastInDim_vecRow_apply, dotGeneral_plain_apply,
    dotGeneral_plain_apply]
  unfold Net.sageAt
  refine congrArg (fun t => t + b (ix1 j) + ∑ k : Fin 128, X (ix2 p k) * Wr (ix2 k j)) ?_
  refine Finset.sum_congr rfl fun k _ => ?_
  refine congrArg (fun t => t * Wl (ix2 k j)) ?_
  show Ideal.div (S (ix2 p k)) _ = _
  rw [divisor_apply]

/-- The specification's layer array with the positive part, at entry (p, j). -/
theorem sageArr_relu_apply {R : Nat} (S X : (⟨2, ![R, 128]⟩ : Shape).Idx → EReal) (cnt : (⟨1, ![R]⟩ : Shape).Idx → EReal)
    (Wl Wr : Net.SW.Idx → EReal) (b : Net.SB.Idx → EReal) (p : Fin R) (j : Fin 128) :
    Net.sageArr true S X cnt Wl Wr b (ix2 p j)
      = max (Net.sageAt S X (fun p => cnt (ix1 p)) Wl Wr (fun j => b (ix1 j)) p j) 0 := rfl

/-- The specification's layer array without the positive part, at entry (p, j). -/
theorem sageArr_plain_apply {R : Nat} (S X : (⟨2, ![R, 128]⟩ : Shape).Idx → EReal) (cnt : (⟨1, ![R]⟩ : Shape).Idx → EReal)
    (Wl Wr : Net.SW.Idx → EReal) (b : Net.SB.Idx → EReal) (p : Fin R) (j : Fin 128) :
    Net.sageArr false S X cnt Wl Wr b (ix2 p j)
      = Net.sageAt S X (fun p => cnt (ix1 p)) Wl Wr (fun j => b (ix1 j)) p j := rfl

/-- The rows sent from the r-nodes and summed at the d-nodes, as the program's first layer spells them. -/
theorem aggRD_v9 (x0 : Net.FA Net.SRn) (x18 x19 : Net.IA Net.SE) :
    val_main_v9 (F := Ideal) x0 x18 x19 = fns.aggRD x0 x18 x19 := rfl
/-- The number of edges arriving at each d-node, as the program's first layer spells it. -/
theorem cntRD_v13 (x19 : Net.IA Net.SE) : val_main_v13 (F := Ideal) x19 = fns.cntRD x19 := rfl

/-- The d-nodes after the first layer, at entry (p, j). -/
theorem hD_at (a : Net.Args) (p : Fin 10000) (j : Fin 128) :
    val_main_v25 (F := Ideal) a.xr a.xd a.w1rdl a.b1rd a.w1rdr a.srcRD a.dstRD (ix2 p j)
      = max (Net.sageAt (fns.aggRD a.xr a.srcRD a.dstRD) a.xd (fun p => fns.cntRD a.dstRD (ix1 p)) a.w1rdl a.w1rdr
          (fun j => a.b1rd (ix1 j)) p j) 0 := by
  unfold val_main_v25 val_main_call0_v0 val_main_call0_cst
  rw [relu_host_apply]
  refine congrArg (fun t => max t 0) ?_
  unfold val_main_v24 val_main_v23 val_main_v22 val_main_v21 val_main_v20 val_main_v19 val_main_v18 val_main_v17
    val_main_v16 val_main_v15 val_main_v14 val_main_cst_3
  rw [aggRD_v9, cntRD_v13]
  exact host_sage_apply _ rfl _ _ _ _ _ _ _ _ _ _ _ p j

/-- The d-nodes after the first layer. -/
theorem hD_eq (a : Net.Args) :
    val_main_v25 (F := Ideal) a.xr a.xd a.w1rdl a.b1rd a.w1rdr a.srcRD a.dstRD = Net.hD fns a := by
  funext i
  obtain ⟨p, j, rfl⟩ : ∃ (p : Fin 10000) (j : Fin 128), i = ix2 p j := ⟨i 0, i 1, eq_ix2 i⟩
  unfold Net.hD
  rw [sageArr_relu_apply]
  exact hD_at a p j

/-- The rows sent from the d-nodes and summed at the r-nodes, as the program's first layer spells them. -/
theorem aggDR_v35 (x1 : Net.FA Net.SDn) (x20 x21 : Net.IA Net.SE) :
    val_main_v35 (F := Ideal) x1 x20 x21 = fns.aggDR x1 x20 x21 := rfl
/-- The number of edges arriving at each r-node, as the program's first layer spells it. -/
theorem cntDR_v39 (x21 : Net.IA Net.SE) : val_main_v39 (F := Ideal) x21 = fns.cntDR x21 := rfl

/-- The r-nodes after the first layer, at entry (p, j). -/
theorem hR_at (a : Net.Args) (p : Fin 100000) (j : Fin 128) :
    val_main_v51 (F := Ideal) a.xr a.xd a.w1drl a.b1dr a.w1drr a.srcDR a.dstDR (ix2 p j)
      = max (Net.sageAt (fns.aggDR a.xd a.srcDR a.dstDR) a.xr (fun p => fns.cntDR a.dstDR (ix1 p)) a.w1drl a.w1drr
          (fun j => a.b1dr (ix1 j)) p j) 0 := by
  unfold val_main_v51 val_main_call1_v0 val_main_call1_cst
  rw [relu_host_apply]
  refine congrArg (fun t => max t 0) ?_
  unfold val_main_v50 val_main_v49 val_main_v48 val_main_v47 val_main_v46 val_main_v45 val_main_v44 val_main_v43
    val_main_v42 val_main_v41 val_main_v40 val_main_cst_9
  rw [aggDR_v35, cntDR_v39]
  exact host_sage_apply _ rfl _ _ _ _ _ _ _ _ _ _ _ p j

/-- The r-nodes after the first layer. -/
theorem hR_eq (a : Net.Args) :
    val_main_v51 (F := Ideal) a.xr a.xd a.w1drl a.b1dr a.w1drr a.srcDR a.dstDR = Net.hR fns a := by
  funext i
  obtain ⟨p, j, rfl⟩ : ∃ (p : Fin 100000) (j : Fin 128), i = ix2 p j := ⟨i 0, i 1, eq_ix2 i⟩
  unfold Net.hR
  rw [sageArr_relu_apply]
  exact hR_at a p j

end Cert.ReferenceIdeal.SageValue

end
-- ==== Proof.RSage2.lean ====
/-
  The reference's second layer is the specification's.

  For each node kind the second layer takes the rows that the first layer left at the nodes of the other kind, sends
  them along the edges, sums what arrives at a node, divides the sum by the number of arrivals (at least one),
  multiplies by a weight matrix, adds a bias row, and adds the node's own first-layer row times a second weight matrix.
  The sending and summing along the edges and the counting are the host operations both programs share: the
  reference's spelling of them is the shared record's by unfolding definitions. What remains is pointwise: the
  division read at an entry, the count laid along the columns, the bias laid along the rows, two matrix products read
  as sums over the contracted coordinate, and the additions in the order the specification takes them. No positive part
  follows the second layer.
-/
import proofs.«104557_j1906965479431_1_alg».proof.Proof.Gen.ReferenceIdeal.Read
import proofs.«104557_j1906965479431_1_alg».proof.Proof.RHost
import proofs.«104557_j1906965479431_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.Sage2Value

open Cert.ReferenceIdeal Cert.ReferenceIdeal.Read Cert.ReferenceIdeal.Host Cert.ReferenceIdeal.Facts₀
open Idealize.ShloMosaic Idealize.ShloMosaic.ValueIdx

/-! ## The layer over any arrays -/

/-- A layer without the positive part, read at the entry (p, j). -/
theorem sageArr_false_apply {R : Nat} (S X : (⟨2, ![R, 128]⟩ : Shape).Idx → EReal) (cnt : (⟨1, ![R]⟩ : Shape).Idx → EReal)
    (Wl Wr : Net.SW.Idx → EReal) (b : Net.SB.Idx → EReal) (p : Fin R) (j : Fin 128) :
    Net.sageArr false S X cnt Wl Wr b (ix2 p j)
      = Net.sageAt S X (fun p => cnt (ix1 p)) Wl Wr (fun j => b (ix1 j)) p j := rfl

/-- A layer at an entry, written out: the mean of the arrivals times the first matrix, plus the bias, plus the
    node's own row times the second matrix. -/
theorem sageAt_eq {R : Nat} (S X : (⟨2, ![R, 128]⟩ : Shape).Idx → EReal) (cnt : Fin R → EReal)
    (Wl Wr : Net.SW.Idx → EReal) (b : Fin 128 → EReal) (p : Fin R) (j : Fin 128) :
    Net.sageAt S X cnt Wl Wr b p j
      = (∑ k : Fin 128, Ideal.div (S (ix2 p k)) (max (cnt p) (Ideal.ofBits .f32 0x3F800000#32)) * Wl (ix2 k j) + b j)
          + ∑ k : Fin 128, X (ix2 p k) * Wr (ix2 k j) := rfl

/-! ## The d-nodes -/

/-- The r-rows sent along the edges and summed at the d-nodes, as the reference spells it in its second layer, is
    the shared operation. -/
theorem aggRD_eq (z : Net.FA Net.SRn) (src dst : Net.IA Net.SE) :
    Host.scatterAdd (F := Ideal) (φ := .f32) scatter_S10000x128_S1600000x1_S1600000x128_1_0_0_1 (val_main_v59 (F := Ideal))
        (val_main_v60 (F := Ideal) dst)
        (Host.gather gather_S100000x128_S1600000x1_S1600000x128_1_0_n_n_0_1_1128 z (val_main_v57 (F := Ideal) src))
      = fns.aggRD z src dst := rfl

/-- The number of edges arriving at each d-node, as the reference spells it in its second layer, is the shared
    operation. -/
theorem cntRD_eq (dst : Net.IA Net.SE) : val_main_v65 (F := Ideal) dst = fns.cntRD dst := rfl

/-- The summed rows divided by the number of arrivals (at least one), at the d-node p and the feature k. -/
theorem meanD_apply (a : Net.Args) (p : Fin 10000) (k : Fin 128) :
    val_main_v70 (F := Ideal) a.xr a.xd a.w1drl a.b1dr a.w1drr a.srcRD a.dstRD a.srcDR a.dstDR (ix2 p k)
      = Ideal.div (fns.aggRD (val_main_v51 (F := Ideal) a.xr a.xd a.w1drl a.b1dr a.w1drr a.srcDR a.dstDR) a.srcRD a.dstRD (ix2 p k))
          (max (fns.cntRD a.dstRD (ix1 p)) (Ideal.ofBits .f32 0x3F800000#32)) := by
  rw [val_main_v70_apply, val_main_v69_apply, val_main_v68_apply, val_main_v67_apply, val_main_v66_apply,
    val_main_cst_15_apply]
  have hc : idx_main_v68 (idx_main_v69 (ix2 p k)) = ix1 p := funext fun d => match d with | ⟨0, _⟩ => rfl
  rw [hc, Ideal.hostDivf_def, Ideal.maximumf_def, Ideal.ofBits_def, cntRD_eq]
  unfold val_main_v61 val_main_v58
  rw [aggRD_eq]

/-- The reference's second layer at the d-node p and the feature j is the specification's layer at that entry, over
    the first layer's two stages. -/
theorem zD_apply (a : Net.Args) (p : Fin 10000) (j : Fin 128) :
    val_main_v76 (F := Ideal) a.xr a.xd a.w1rdl a.b1rd a.w1rdr a.w1drl a.b1dr a.w1drr a.w2rdl a.b2rd a.w2rdr a.srcRD a.dstRD a.srcDR a.dstDR (ix2 p j)
      = Net.sageAt (R := 10000) (fns.aggRD (val_main_v51 (F := Ideal) a.xr a.xd a.w1drl a.b1dr a.w1drr a.srcDR a.dstDR) a.srcRD a.dstRD) (val_main_v25 (F := Ideal) a.xr a.xd a.w1rdl a.b1rd a.w1rdr a.srcRD a.dstRD)
          (fun p => fns.cntRD a.dstRD (ix1 p)) a.w2rdl a.w2rdr (fun j => a.b2rd (ix1 j)) p j := by
  rw [val_main_v76_apply, val_main_v74_apply, val_main_v71_apply, val_main_v73_apply, val_main_v72_apply,
    val_main_v75_apply]
  have hb : idx_main_v72 (idx_main_v73 (ix2 p j)) = ix1 j := funext fun d => match d with | ⟨0, _⟩ => rfl
  have hl : ∀ q : Fin 128, lidx_main_v71 (ix2 p j) q = ix2 p q := fun q =>
    funext fun d => match d with | ⟨0, _⟩ => rfl | ⟨1, _⟩ => rfl
  have hr : ∀ q : Fin 128, ridx_main_v71 (ix2 p j) q = ix2 q j := fun q =>
    funext fun d => match d with | ⟨0, _⟩ => rfl | ⟨1, _⟩ => rfl
  have hl' : ∀ q : Fin 128, lidx_main_v75 (ix2 p j) q = ix2 p q := fun q =>
    funext fun d => match d with | ⟨0, _⟩ => rfl | ⟨1, _⟩ => rfl
  have hr' : ∀ q : Fin 128, ridx_main_v75 (ix2 p j) q = ix2 q j := fun q =>
    funext fun d => match d with | ⟨0, _⟩ => rfl | ⟨1, _⟩ => rfl
  rw [hb, Ideal.addf_def, Ideal.addf_def]
  simp only [hl, hr, hl', hr', meanD_apply]
  rw [sageAt_eq]

/-- The reference's d-node embeddings are the specification's, given that the first layer's two stages are the
    specification's. -/
theorem zD_of (a : Net.Args)
    (hhD : val_main_v25 (F := Ideal) a.xr a.xd a.w1rdl a.b1rd a.w1rdr a.srcRD a.dstRD = Net.hD fns a)
    (hhR : val_main_v51 (F := Ideal) a.xr a.xd a.w1drl a.b1dr a.w1drr a.srcDR a.dstDR = Net.hR fns a) :
    val_main_v76 (F := Ideal) a.xr a.xd a.w1rdl a.b1rd a.w1rdr a.w1drl a.b1dr a.w1drr a.w2rdl a.b2rd a.w2rdr a.srcRD a.dstRD a.srcDR a.dstDR = Net.zD fns a := by
  funext i
  obtain ⟨p, j, rfl⟩ : ∃ (p : Fin 10000) (j : Fin 128), i = ix2 p j := ⟨i 0, i 1, eq_ix2 i⟩
  rw [zD_apply, hhD, hhR]
  unfold Net.zD
  rw [sageArr_false_apply]

/-! ## The r-nodes -/

/-- The d-rows sent along the edges and summed at the r-nodes, as the reference spells it in its second layer, is
    the shared operation. -/
theorem aggDR_eq (z : Net.FA Net.SDn) (src dst : Net.IA Net.SE) :
    Host.scatterAdd (F := Ideal) (φ := .f32) scatter_S100000x128_S1600000x1_S1600000x128_1_0_0_1 (val_main_v84 (F := Ideal))
        (val_main_v85 (F := Ideal) dst)
        (Host.gather gather_S10000x128_S1600000x1_S1600000x128_1_0_n_n_0_1_1128 z (val_main_v82 (F := Ideal) src))
      = fns.aggDR z src dst := rfl

/-- The number of edges arriving at each r-node, as the reference spells it in its second layer, is the shared
    operation. -/
theorem cntDR_eq (dst : Net.IA Net.SE) : val_main_v90 (F := Ideal) dst = fns.cntDR dst := rfl

/-- The summed rows divided by the number of arrivals (at least one), at the r-node p and the feature k. -/
theorem meanR_apply (a : Net.Args) (p : Fin 100000) (k : Fin 128) :
    val_main_v95 (F := Ideal) a.xr a.xd a.w1rdl a.b1rd a.w1rdr a.srcRD a.dstRD a.srcDR a.dstDR (ix2 p k)
      = Ideal.div (fns.aggDR (val_main_v25 (F := Ideal) a.xr a.xd a.w1rdl a.b1rd a.w1rdr a.srcRD a.dstRD) a.srcDR a.dstDR (ix2 p k))
          (max (fns.cntDR a.dstDR (ix1 p)) (Ideal.ofBits .f32 0x3F800000#32)) := by
  rw [val_main_v95_apply, val_main_v94_apply, val_main_v93_apply, val_main_v92_apply, val_main_v91_apply,
    val_main_cst_21_apply]
  have hc : idx_main_v93 (idx_main_v94 (ix2 p k)) = ix1 p := funext fun d => match d with | ⟨0, _⟩ => rfl
  rw [hc, Ideal.hostDivf_def, Ideal.maximumf_def, Ideal.ofBits_def, cntDR_eq]
  unfold val_main_v86 val_main_v83
  rw [aggDR_eq]

/-- The reference's second layer at the r-node p and the feature j is the specification's layer at that entry, over
    the first layer's two stages. -/
theorem zR_apply (a : Net.Args) (p : Fin 100000) (j : Fin 128) :
    val_main_v101 (F := Ideal) a.xr a.xd a.w1rdl a.b1rd a.w1rdr a.w1drl a.b1dr a.w1drr a.w2drl a.b2dr a.w2drr a.srcRD a.dstRD a.srcDR a.dstDR (ix2 p j)
      = Net.sageAt (R := 100000) (fns.aggDR (val_main_v25 (F := Ideal) a.xr a.xd a.w1rdl a.b1rd a.w1rdr a.srcRD a.dstRD) a.srcDR a.dstDR) (val_main_v51 (F := Ideal) a.xr a.xd a.w1drl a.b1dr a.w1drr a.srcDR a.dstDR)
          (fun p => fns.cntDR a.dstDR (ix1 p)) a.w2drl a.w2drr (fun j => a.b2dr (ix1 j)) p j := by
  rw [val_main_v101_apply, val_main_v99_apply, val_main_v96_apply, val_main_v98_apply, val_main_v97_apply,
    val_main_v100_apply]
  have hb : idx_main_v97 (idx_main_v98 (ix2 p j)) = ix1 j := funext fun d => match d with | ⟨0, _⟩ => rfl
  have hl : ∀ q : Fin 128, lidx_main_v96 (ix2 p j) q = ix2 p q := fun q =>
    funext fun d => match d with | ⟨0, _⟩ => rfl | ⟨1, _⟩ => rfl
  have hr : ∀ q : Fin 128, ridx_main_v96 (ix2 p j) q = ix2 q j := fun q =>
    funext fun d => match d with | ⟨0, _⟩ => rfl | ⟨1, _⟩ => rfl
  have hl' : ∀ q : Fin 128, lidx_main_v100 (ix2 p j) q = ix2 p q := fun q =>
    funext fun d => match d with | ⟨0, _⟩ => rfl | ⟨1, _⟩ => rfl
  have hr' : ∀ q : Fin 128, ridx_main_v100 (ix2 p j) q = ix2 q j := fun q =>
    funext fun d => match d with | ⟨0, _⟩ => rfl | ⟨1, _⟩ => rfl
  rw [hb, Ideal.addf_def, Ideal.addf_def]
  simp only [hl, hr, hl', hr', meanR_apply]
  rw [sageAt_eq]

/-- The reference's r-node embeddings are the specification's, given that the first layer's two stages are the
    specification's. -/
theorem zR_of (a : Net.Args)
    (hhD : val_main_v25 (F := Ideal) a.xr a.xd a.w1rdl a.b1rd a.w1rdr a.srcRD a.dstRD = Net.hD fns a)
    (hhR : val_main_v51 (F := Ideal) a.xr a.xd a.w1drl a.b1dr a.w1drr a.srcDR a.dstDR = Net.hR fns a) :
    val_main_v101 (F := Ideal) a.xr a.xd a.w1rdl a.b1rd a.w1rdr a.w1drl a.b1dr a.w1drr a.w2drl a.b2dr a.w2drr a.srcRD a.dstRD a.srcDR a.dstDR = Net.zR fns a := by
  funext i
  obtain ⟨p, j, rfl⟩ : ∃ (p : Fin 100000) (j : Fin 128), i = ix2 p j := ⟨i 0, i 1, eq_ix2 i⟩
  rw [zR_apply, hhD, hhR]
  unfold Net.zR
  rw [sageArr_false_apply]

end Cert.ReferenceIdeal.Sage2Value

end
-- ==== Proof.RDecoder.lean ====
/-
  The reference's perceptron over the labelled pairs is the specification's.

  The last stages of the reference take, for each of the 200000 labelled pairs, the r-node's embedding row and the
  d-node's embedding row, join them into one row of 256 numbers, multiply by a 256 by 128 matrix, add a bias row, take
  the positive part, multiply by a 128 by 1 matrix, add a bias and apply 1 / (1 + exp (-x)). The specification instead
  multiplies the r-row by the first 128 rows of the matrix and the d-row by the last 128 and adds the two. The law
  that joins them: a sum over the 256 joined coordinates is the sum over the first 128, where the joined row reads the
  r-row, plus the sum over the last 128, where it reads the d-row. Sums on the extended reals are sums in a commutative
  monoid, so no finiteness is needed. The closing expression 1 / (1 + exp (-x)) is the logistic function by definition.
-/
import proofs.«104557_j1906965479431_1_alg».proof.Proof.Gen.ReferenceIdeal.Read
import proofs.«104557_j1906965479431_1_alg».proof.Proof.RHost
import proofs.«104557_j1906965479431_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.DecoderValue

open Cert.ReferenceIdeal Cert.ReferenceIdeal.Read Cert.ReferenceIdeal.Host Cert.ReferenceIdeal.Facts₀
open Idealize.ShloMosaic Idealize.ShloMosaic.ValueIdx

/-- The r-rows at the labelled pairs, as the reference spells the selection, are the shared selection of r-rows. -/
theorem selR_eq (z : Net.FA Net.SRn) (lab : Net.IA Net.SL) :
    Host.gather gather_S100000x128_S200000x1_S200000x128_1_0_n_n_0_1_1128 z (val_main_v107 (F := Ideal) lab) = fns.selR z lab := rfl

/-- The d-rows at the labelled pairs, as the reference spells the selection, are the shared selection of d-rows. -/
theorem selD_eq (z : Net.FA Net.SDn) (lab : Net.IA Net.SL) :
    Host.gather gather_S10000x128_S200000x1_S200000x128_1_0_n_n_0_1_1128 z (val_main_v114 (F := Ideal) lab) = fns.selD z lab := rfl

/-- A sum over 256 coordinates is the sum over the first 128 plus the sum over the last 128. -/
theorem sum_fin256_halves {M : Type*} [AddCommMonoid M] (f : Fin 256 → M) :
    ∑ q : Fin 256, f q
      = ∑ k : Fin 128, f (Fin.castLE (by decide) k : Fin 256) + ∑ k : Fin 128, f (Fin.natAdd 128 k : Fin 256) := by
  have e : ∑ q : Fin 256, f q = ∑ q : Fin (128 + 128), f q := rfl
  rw [e, Fin.sum_univ_add]
  rfl

/-- Two rows of 128 joined into a row of 256, read in the first half: the first row. -/
theorem joined_left (x₁ x₂ : Net.FA Net.SLn) (l : Fin 200000) (k : Fin 128) :
    concatenate S200000x256 1 [⟨S200000x128, x₁⟩, ⟨S200000x128, x₂⟩] concatenates_S200000x128_S200000x128_S200000x256_d1
      (ix2 l (Fin.castLE (by decide) k : Fin 256)) = x₁ (ix2 l k) :=
  concatenate_pair_apply_left (t := S200000x256) (s₁ := S200000x128) (s₂ := S200000x128) (1 : Fin 2) x₁ x₂
    concatenates_S200000x128_S200000x128_S200000x256_d1 _ rfl (ix2 l k)
    (fun b => match b with | ⟨0, _⟩ => rfl | ⟨1, _⟩ => rfl)

/-- Two rows of 128 joined into a row of 256, read in the second half: the second row. -/
theorem joined_right (x₁ x₂ : Net.FA Net.SLn) (l : Fin 200000) (k : Fin 128) :
    concatenate S200000x256 1 [⟨S200000x128, x₁⟩, ⟨S200000x128, x₂⟩] concatenates_S200000x128_S200000x128_S200000x256_d1
      (ix2 l (Fin.natAdd 128 k : Fin 256)) = x₂ (ix2 l k) :=
  concatenate_pair_apply_right (t := S200000x256) (s₁ := S200000x128) (s₂ := S200000x128) (1 : Fin 2) x₁ x₂
    concatenates_S200000x128_S200000x128_S200000x256_d1 _ rfl rfl (ix2 l k)
    (fun b => match b with | ⟨0, _⟩ => fun _ => rfl | ⟨1, _⟩ => fun h => absurd rfl h)
    (by show k.val + 128 = 128 + k.val; omega)

/-- The reference's joined row for the pair l at a coordinate in the first half: the selected r-row. -/
theorem joined_first (a : Net.Args) (l : Fin 200000) (k : Fin 128) :
    val_main_v116 (F := Ideal) a.xr a.xd a.w1rdl a.b1rd a.w1rdr a.w1drl a.b1dr a.w1drr a.w2rdl a.b2rd a.w2rdr a.w2drl a.b2dr a.w2drr a.srcRD a.dstRD a.srcDR a.dstDR a.labR a.labD
        (ix2 l (Fin.castLE (by decide) k : Fin 256))
      = fns.selR (val_main_v101 (F := Ideal) a.xr a.xd a.w1rdl a.b1rd a.w1rdr a.w1drl a.b1dr a.w1drr a.w2drl a.b2dr a.w2drr a.srcRD a.dstRD a.srcDR a.dstDR) a.labR (ix2 l k) := by
  unfold val_main_v116
  rw [joined_left]
  unfold val_main_v108
  rw [selR_eq]

/-- The reference's joined row for the pair l at a coordinate in the second half: the selected d-row. -/
theorem joined_second (a : Net.Args) (l : Fin 200000) (k : Fin 128) :
    val_main_v116 (F := Ideal) a.xr a.xd a.w1rdl a.b1rd a.w1rdr a.w1drl a.b1dr a.w1drr a.w2rdl a.b2rd a.w2rdr a.w2drl a.b2dr a.w2drr a.srcRD a.dstRD a.srcDR a.dstDR a.labR a.labD
        (ix2 l (Fin.natAdd 128 k : Fin 256))
      = fns.selD (val_main_v76 (F := Ideal) a.xr a.xd a.w1rdl a.b1rd a.w1rdr a.w1drl a.b1dr a.w1drr a.w2rdl a.b2rd a.w2rdr a.srcRD a.dstRD a.srcDR a.dstDR) a.labD (ix2 l k) := by
  unfold val_main_v116
  rw [joined_right]
  unfold val_main_v115
  rw [selD_eq]

/-- The reference's hidden unit j for the pair l is the specification's, over the selected rows of the two
    embedding stages. -/
theorem hidden_apply (a : Net.Args) (l : Fin 200000) (j : Fin 128) :
    val_main_v121 (F := Ideal) a.xr a.xd a.w1rdl a.b1rd a.w1rdr a.w1drl a.b1dr a.w1drr a.w2rdl a.b2rd a.w2rdr a.w2drl a.b2dr a.w2drr a.dW1 a.db1 a.srcRD a.dstRD a.srcDR a.dstDR a.labR a.labD (ix2 l j)
      = Net.hidAt
          (fns.selR (val_main_v101 (F := Ideal) a.xr a.xd a.w1rdl a.b1rd a.w1rdr a.w1drl a.b1dr a.w1drr a.w2drl a.b2dr a.w2drr a.srcRD a.dstRD a.srcDR a.dstDR) a.labR)
          (fns.selD (val_main_v76 (F := Ideal) a.xr a.xd a.w1rdl a.b1rd a.w1rdr a.w1drl a.b1dr a.w1drr a.w2rdl a.b2rd a.w2rdr a.srcRD a.dstRD a.srcDR a.dstDR) a.labD)
          a.dW1 (fun j => a.db1 (ix1 j)) l j := by
  rw [val_main_v121_apply, val_main_v120_apply, val_main_v117_apply, val_main_v119_apply, val_main_v118_apply,
    val_main_call2_v0_apply, val_main_call2_cst_apply]
  have hb : idx_main_v118 (idx_main_v119 (ix2 l j)) = ix1 j := funext fun d => match d with | ⟨0, _⟩ => rfl
  have hl : ∀ q : Fin 256, lidx_main_v117 (ix2 l j) q = ix2 l q := fun q =>
    funext fun d => match d with | ⟨0, _⟩ => rfl | ⟨1, _⟩ => rfl
  have hr : ∀ q : Fin 256, ridx_main_v117 (ix2 l j) q = ix2 q j := fun q =>
    funext fun d => match d with | ⟨0, _⟩ => rfl | ⟨1, _⟩ => rfl
  rw [hb, Ideal.maximumf_def, Ideal.addf_def, Ideal.ofBits_def, Ideal.ofBits_zero_f32, sum_fin256_halves]
  simp only [hl, hr, joined_first, joined_second]
  unfold Net.hidAt
  rfl

/-- The reference's number for the pair l before the logistic function: the hidden units times the second matrix,
    plus its bias. -/
theorem logit_apply (a : Net.Args) (l : Fin 200000) :
    val_main_v126 (F := Ideal) a.xr a.xd a.w1rdl a.b1rd a.w1rdr a.w1drl a.b1dr a.w1drr a.w2rdl a.b2rd a.w2rdr a.w2drl a.b2dr a.w2drr a.dW1 a.db1 a.dW2 a.db2 a.srcRD a.dstRD a.srcDR a.dstDR a.labR a.labD (ix1 l)
      = ∑ j : Fin 128, Net.hidAt
          (fns.selR (val_main_v101 (F := Ideal) a.xr a.xd a.w1rdl a.b1rd a.w1rdr a.w1drl a.b1dr a.w1drr a.w2drl a.b2dr a.w2drr a.srcRD a.dstRD a.srcDR a.dstDR) a.labR)
          (fns.selD (val_main_v76 (F := Ideal) a.xr a.xd a.w1rdl a.b1rd a.w1rdr a.w1drl a.b1dr a.w1drr a.w2rdl a.b2rd a.w2rdr a.srcRD a.dstRD a.srcDR a.dstDR) a.labD)
          a.dW1 (fun j => a.db1 (ix1 j)) l j * a.dW2 (ix2 j (0 : Fin 1)) + a.db2 (ix1 (0 : Fin 1)) := by
  rw [val_main_v126_apply, val_main_v125_apply, val_main_v122_apply, val_main_v124_apply, val_main_v123_apply]
  have hb : idx_main_v123 (idx_main_v124 (idx_main_v126 (ix1 l))) = ix1 (0 : Fin 1) :=
    funext fun d => match d with | ⟨0, _⟩ => rfl
  have hl : ∀ q : Fin 128, lidx_main_v122 (idx_main_v126 (ix1 l)) q = ix2 l q := fun q =>
    funext fun d => match d with | ⟨0, _⟩ => Fin.ext (Nat.div_one l.val) | ⟨1, _⟩ => rfl
  have hr : ∀ q : Fin 128, ridx_main_v122 (idx_main_v126 (ix1 l)) q = ix2 q (0 : Fin 1) := fun q =>
    funext fun d => match d with | ⟨0, _⟩ => rfl | ⟨1, _⟩ => rfl
  rw [hb, Ideal.addf_def]
  simp only [hl, hr, hidden_apply]

/-- The reference's closing stages, 1 / (1 + exp (-x)) with both ones the word of one, are the logistic function. -/
theorem logistic_apply (a : Net.Args) (l : Fin 200000) :
    val_main_v132 (F := Ideal) a.xr a.xd a.w1rdl a.b1rd a.w1rdr a.w1drl a.b1dr a.w1drr a.w2rdl a.b2rd a.w2rdr a.w2drl a.b2dr a.w2drr a.dW1 a.db1 a.dW2 a.db2 a.srcRD a.dstRD a.srcDR a.dstDR a.labR a.labD (ix1 l)
      = Ideal.logistic (val_main_v126 (F := Ideal) a.xr a.xd a.w1rdl a.b1rd a.w1rdr a.w1drl a.b1dr a.w1drr a.w2rdl a.b2rd a.w2rdr a.w2drl a.b2dr a.w2drr a.dW1 a.db1 a.dW2 a.db2 a.srcRD a.dstRD a.srcDR a.dstDR a.labR a.labD (ix1 l)) := by
  rw [val_main_v132_apply, val_main_v131_apply, val_main_cst_27_apply, val_main_v130_apply, val_main_v129_apply,
    val_main_cst_26_apply, val_main_v128_apply, val_main_v127_apply]
  rw [Ideal.hostDivf_def, Ideal.addf_def, Ideal.hostUnary_exp_def, Ideal.hostNegf_def, Ideal.negf_def, Ideal.ofBits_def,
    Ideal.ofBits_one_f32]
  rfl

/-- The reference's result is the specification's network, given that its two embedding stages are the
    specification's embeddings. -/
theorem out_of (a : Net.Args)
    (hzR : val_main_v101 (F := Ideal) a.xr a.xd a.w1rdl a.b1rd a.w1rdr a.w1drl a.b1dr a.w1drr a.w2drl a.b2dr a.w2drr a.srcRD a.dstRD a.srcDR a.dstDR = Net.zR fns a)
    (hzD : val_main_v76 (F := Ideal) a.xr a.xd a.w1rdl a.b1rd a.w1rdr a.w1drl a.b1dr a.w1drr a.w2rdl a.b2rd a.w2rdr a.srcRD a.dstRD a.srcDR a.dstDR = Net.zD fns a) :
    val_main_v132 (F := Ideal) a.xr a.xd a.w1rdl a.b1rd a.w1rdr a.w1drl a.b1dr a.w1drr a.w2rdl a.b2rd a.w2rdr a.w2drl a.b2dr a.w2drr a.dW1 a.db1 a.dW2 a.db2 a.srcRD a.dstRD a.srcDR a.dstDR a.labR a.labD = Net.out fns a := by
  funext i
  obtain ⟨l, rfl⟩ : ∃ l : Fin 200000, i = ix1 l := ⟨i 0, eq_ix1 i⟩
  rw [logistic_apply, logit_apply, hzR, hzD]
  unfold Net.out Net.decArr Net.decAt
  rfl

end Cert.ReferenceIdeal.DecoderValue

end
-- ==== Proof.lean ====
/-
  The certificate of the graph network: the kernel's program, its idealization and the idealized reference.

  All three programs run, end without a fault and leave their argument arrays as launched: for the two kernel
  programs that is the generated frame proof over their five kernel regions; for the reference it is its generated run
  with the result dropped. The idealization changed nothing that needs a law (its ledger is empty). What is proved by
  hand is that the two idealized programs end with the same result over the extended reals:

  * both compute, per layer and node kind, the rows sent along the edges and summed at the destinations, divided by the
    number of arrivals (at least one), times a weight matrix, plus a bias, plus the node's own row times a second
    weight matrix — the kernel program in a region whose blocks are 5000 nodes, the reference on whole arrays; the
    sums along the edges, the counts and the selection of the labelled pairs are host operations both programs spell
    alike and are never opened (`Net.HostFns`);
  * the kernel's perceptron multiplies the r-embedding by the first 128 rows of the first weight and the d-embedding by
    the last 128 and adds, where the reference joins the two embeddings into a row of 256 and multiplies once: a sum
    over 256 joined coordinates is the sum over the first 128 plus the sum over the last 128, in any commutative monoid;
  * the kernel's logistic operation and the reference's 1 / (1 + exp (-x)) are one function of an extended real by
    definition.

  No step uses that the inputs are finite: the two results agree on every extended-real input.
-/
import proofs.«104557_j1906965479431_1_alg».proof.Defs
import proofs.«104557_j1906965479431_1_alg».proof.Proof.Gen.Kernel
import proofs.«104557_j1906965479431_1_alg».proof.Proof.Gen.Kernel.Frame
import proofs.«104557_j1906965479431_1_alg».proof.Proof.Gen.KernelIdeal
import proofs.«104557_j1906965479431_1_alg».proof.Proof.Gen.KernelIdeal.Frame
import proofs.«104557_j1906965479431_1_alg».proof.Proof.Gen.ReferenceIdeal
import proofs.«104557_j1906965479431_1_alg».proof.Proof.Gen.ReferenceIdeal.Run
import proofs.«104557_j1906965479431_1_alg».proof.Proof.Gen.ReferenceIdeal.Read
import proofs.«104557_j1906965479431_1_alg».proof.Proof.Gen.Pre_finite_inputs
import proofs.«104557_j1906965479431_1_alg».proof.Proof.KRun
import proofs.«104557_j1906965479431_1_alg».proof.Proof.KChain
import proofs.«104557_j1906965479431_1_alg».proof.Proof.RSage
import proofs.«104557_j1906965479431_1_alg».proof.Proof.RSage2
import proofs.«104557_j1906965479431_1_alg».proof.Proof.RDecoder
import Idealize.ShloMosaic.Adequacy
import Idealize.ShloMosaic.Init

set_option maxRecDepth 16384

noncomputable section

namespace Cert.Proof

open Idealize.ShloMosaic Idealize.SL.Sem

/-- The shared host functions are spelt alike by the two programs. -/
theorem fns_eq : Cert.ReferenceIdeal.Host.fns = Cert.KernelIdeal.Host.fns := rfl

/-- The reference's result is the network's function of its argument arrays: the first layer, the second layer on
    top of it, and the perceptron on top of both. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v132 (F := Ideal) m c
      = Net.out Cert.ReferenceIdeal.Host.fns (Cert.ReferenceIdeal.Host.args m c) :=
  (Cert.ReferenceIdeal.Read.val_main_v132_eq m c).trans
    (Cert.ReferenceIdeal.DecoderValue.out_of (Cert.ReferenceIdeal.Host.args m c)
      (Cert.ReferenceIdeal.Sage2Value.zR_of _ (Cert.ReferenceIdeal.SageValue.hD_eq _) (Cert.ReferenceIdeal.SageValue.hR_eq _))
      (Cert.ReferenceIdeal.Sage2Value.zD_of _ (Cert.ReferenceIdeal.SageValue.hD_eq _) (Cert.ReferenceIdeal.SageValue.hR_eq _)))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both idealized programs end at the network's function of argument arrays that agree. -/
theorem algebraic : Cert.algebraic_KernelIdeal_ReferenceIdeal := by
  intro m ρ m' ρ' _ hagree
  refine ⟨fun c => Net.out Cert.KernelIdeal.Host.fns (Cert.KernelIdeal.Host.args m c), ?_, ?_⟩
  · exact (θ_run Cert.KernelIdeal.defs _ _).mono
      (fun r h c => ⟨(h c).1.trans (Cert.KernelIdeal.Chain.out_at11 m ρ c), (h c).2⟩)
      (Cert.KernelIdeal.RunOut.run_out m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23⟩ := hagree c
    show Cert.ReferenceIdeal.Value.res_main_v132 (F := Ideal) m' c = Net.out Cert.KernelIdeal.Host.fns (Cert.KernelIdeal.Host.args m c)
    rw [ref_eq, fns_eq]
    refine congrArg (Net.out Cert.KernelIdeal.Host.fns) ?_
    unfold Cert.ReferenceIdeal.Host.args Cert.KernelIdeal.Host.args
    rw [h0, h1, h2, h3, h4, h5, h6, h7, h8, h9, h10, h11, h12, h13, h14, h15, h16, h17, h18, h19, h20, h21, h22, h23]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
